-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel

variable [Facts]

def fn {F : FTy → Type} [FloatOps F] (main_arg0 : FVec F S16x2048x512 .f32) (main_arg1 : FVec F S16x2048x512 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  main_v8
-- ==== Kernel.lean ====
abbrev S16x2048x512 : Shape := ⟨3, ![16, 2048, 512]⟩
abbrev S16x2048x1 : Shape := ⟨3, ![16, 2048, 1]⟩
abbrev S1x2048x512 : Shape := ⟨3, ![1, 2048, 512]⟩
abbrev S1x2048x1 : Shape := ⟨3, ![1, 2048, 1]⟩
abbrev S2048x512 : Shape := ⟨2, ![2048, 512]⟩
abbrev S2048x1 : Shape := ⟨2, ![2048, 1]⟩
abbrev S1x512x512 : Shape := ⟨3, ![1, 512, 512]⟩
abbrev S512x512 : Shape := ⟨2, ![512, 512]⟩
abbrev S2048 : Shape := ⟨1, ![2048]⟩
abbrev S16x2048 : Shape := ⟨2, ![16, 2048]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x1, .f32⟩
  | .hbm, ⟨3, _⟩ => ⟨S16x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x1, .f32⟩
  | .local _ .vmem, ⟨5, _⟩ => ⟨S1x2048x1, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x2048x512_S1x512x512_0_0_0 : ∀ a, (![0, 0, 0] : Fin 3 → Nat) a + S1x512x512.size a ≤ S1x2048x512.size a
  h_S1x512x512 : 0 < S1x512x512.numel
  shapeCasts_S1x512x512_S512x512 : S1x512x512.ShapeCasts S512x512
  reduces_S2048x512_S2048 : S2048x512.Reduces [1] S2048
  shapeCasts_S2048_S2048x1 : S2048.ShapeCasts S2048x1
  broadcasts_S2048x1_S2048x512 : S2048x1.Broadcasts S2048x512
  inb_S1x2048x512_S1x512x512_0_512_0 : ∀ a, (![0, 512, 0] : Fin 3 → Nat) a + S1x512x512.size a ≤ S1x2048x512.size a
  inb_S1x2048x512_S1x512x512_0_1024_0 : ∀ a, (![0, 1024, 0] : Fin 3 → Nat) a + S1x512x512.size a ≤ S1x2048x512.size a
  inb_S1x2048x512_S1x512x512_0_1536_0 : ∀ a, (![0, 1536, 0] : Fin 3 → Nat) a + S1x512x512.size a ≤ S1x2048x512.size a
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  shapeCasts_S16x2048x1_S16x2048 : S16x2048x1.ShapeCasts S16x2048
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x2048x512.size a
  hwx0_0 : ∀ i : grid0.Coords, EltTy.bits .f32 = 32 ∨ (Rect.block (s := S16x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x2048x512.size a
  hwx0_1 : ∀ i : grid0.Coords, EltTy.bits .f32 = 32 ∨ (Rect.block (s := S16x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S16x2048x1.size a
  hwx0_2 : ∀ i : grid0.Coords, EltTy.bits .f32 = 32 ∨ (Rect.block (s := S16x2048x1) S1x2048x1.size (cc0_transform_2 i) (hinb0_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x2048, .f32⟩
  | .hbm, ⟨3, _⟩ => ⟨S_, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S16x2048x1, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x512, .f32⟩
  | .hbm, ⟨18, _⟩ => ⟨S16x2048x512, .f32⟩
  | .hbm, ⟨19, _⟩ => ⟨S_, .f32⟩
  | .hbm, ⟨20, _⟩ => ⟨S16x2048, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  reducesTo_S16x2048x512_S16x2048_d2 : S16x2048x512.ReducesTo [2] S16x2048
  dot_S16x2048x512_S16x2048x512_S16x2048x2048_2_2_1_1_0_0_wf : DotDims.WF S16x2048x512 S16x2048x512 S16x2048x2048 [2] [2] [1] [1] [0] [0]
  dot_S16x2048x2048_S16x2048x512_S16x2048x512_2_1_1_2_0_0_wf : DotDims.WF S16x2048x2048 S16x2048x512 S16x2048x512 [2] [1] [1] [2] [0] [0]

variable [Facts₀]

def dot_S16x2048x512_S16x2048x512_S16x2048x2048_2_2_1_1_0_0 : DotDims S16x2048x512 S16x2048x512 S16x2048x2048 where
  lhsContracting := [2]
  rhsContracting := [2]
  lhsNonContracting := [1]
  rhsNonContracting := [1]
  lhsBatch := [0]
  rhsBatch := [0]
  wf := dot_S16x2048x512_S16x2048x512_S16x2048x2048_2_2_1_1_0_0_wf
def dot_S16x2048x2048_S16x2048x512_S16x2048x512_2_1_1_2_0_0 : DotDims S16x2048x2048 S16x2048x512 S16x2048x512 where
  lhsContracting := [2]
  rhsContracting := [1]
  lhsNonContracting := [1]
  rhsNonContracting := [2]
  lhsBatch := [0]
  rhsBatch := [0]
  wf := dot_S16x2048x2048_S16x2048x512_S16x2048x512_2_1_1_2_0_0_wf

class Facts : Prop extends Facts₀ where

variable [Facts]
-- ==== Proof.Spec.lean ====
/-
  The row score both programs compute, over the reals.

  For one query row `q` (512 numbers) and the 2048 support rows `s j` of its batch, the logits are the inner products
  `ℓ j = ∑ d, q d * s j d`; the attention weights are their softmax, `w j = exp (ℓ j - M) / ∑ j', exp (ℓ j' - M)`
  (the same for every shift `M`); the attended vector is `∑ j, w j * s j d` and the score its inner product with `q`.
  `blockOf X b` is batch `b` of a [16, 2048, 512] array as a [1, 2048, 512] block.
-/
import Idealize.ShloMosaic.PureOps.Ideal
import Idealize.ShloMosaic.Lib.ValueIdx

noncomputable section

namespace Cert.Spec

open Idealize.ShloMosaic Idealize.ShloMosaic.ValueIdx

abbrev SArg : Shape := ⟨3, ![16, 2048, 512]⟩
abbrev SBlk : Shape := ⟨3, ![1, 2048, 512]⟩
abbrev SRes : Shape := ⟨2, ![16, 2048]⟩

/-- Batch `b` of an argument array, as the [1, 2048, 512] block one grid point works on. -/
def blockOf (X : SArg.Idx → EReal) (b : Fin 16) : SBlk.Idx → EReal :=
  fun y => X (ix3 b (y 1 : Fin 2048) (y 2 : Fin 512))

/-- The logit of query row `q` against support row `j`. -/
def logit (q : Fin 512 → ℝ) (s : Fin 2048 → Fin 512 → ℝ) (j : Fin 2048) : ℝ := ∑ d : Fin 512, q d * s j d

/-- The reference's score of a query row, its softmax taken with shift `M`:
    `∑ d, q d * ∑ j, (exp (ℓ j - M) * (1 / ∑ j', exp (ℓ j' - M))) * s j d`. -/
def refRow (q : Fin 512 → ℝ) (s : Fin 2048 → Fin 512 → ℝ) (M : ℝ) : ℝ :=
  ∑ d : Fin 512, q d * ∑ j : Fin 2048,
    (Real.exp (logit q s j - M) * (1 / ∑ j' : Fin 2048, Real.exp (logit q s j' - M))) * s j d

end Cert.Spec

end
-- ==== Proof.KernelValue.lean ====
/-
  The kernel program's run, with its result named.

  The program is one pipelined region over a grid of 16 points, one per batch `b`, followed by one reshape.  At point
  `b` the region stages batch `b` of the two [16, 2048, 512] argument arrays as [1, 2048, 512] blocks, runs the body on
  them, and writes the [1, 2048, 1] block the body leaves back as batch `b` of a [16, 2048, 1] array; the reshape then
  drops the unit axis, giving the [16, 2048] result.  So entry `(b, r)` of the result is entry `(0, r, 0)` of the
  body's function of batch `b` of the first argument and batch `b` of the second.

  The body's function stays the opaque term `Gen.out0_2` throughout: what is shown here is only where blocks sit in
  arrays.  A block's element `y` sits in its array at block index × block size + `y` on each axis; the three index
  maps all send point `t` to block index `(t, 0, 0)`; the sixteen output blocks tile the output array; and a
  [16, 2048, 1] array and its [16, 2048] reshape agree at equal row-major positions `2048 b + r`.
-/
import proofs.«168202_j14027363189464_2_alg».proof.Proof.Gen.KernelIdeal.Frame
import proofs.«168202_j14027363189464_2_alg».proof.Proof.Spec
import Idealize.ShloMosaic.Lib.Pipeline.Value
import Idealize.ShloMosaic.Lib.ValueIdx
import Idealize.ShloMosaic.Lib.StableHlo.Run

noncomputable section

namespace Cert.KernelIdeal.KV

open Cert.KernelIdeal Cert.KernelIdeal.Gen Idealize.ShloMosaic Idealize.ShloMosaic.TcCoe Idealize.SL.Sem
open Idealize.ShloMosaic.ValueIdx

/-- What the kernel program leaves in its result array, from the launch contents `Q`, `S` of its two arguments: entry
    `(b, r)` is entry `(0, r, 0)` of the block the body writes at grid point `b`, and that block is the body's function
    (`Gen.out0_2`) of batch `b` of `Q` and of `S`. -/
def result (Q S : Cert.Spec.SArg.Idx → EReal) : Cert.Spec.SRes.Idx → EReal :=
  fun i => Cert.KernelIdeal.Gen.out0_2 (F := Ideal) (Cert.Spec.blockOf Q (i 0 : Fin 16)) (Cert.Spec.blockOf S (i 0 : Fin 16)) (ix3 (0 : Fin 1) (i 1 : Fin 2048) (0 : Fin 1))

section Lemmas

variable (m : (ℓ : Loc nD τ sig) → Buf (Elt Ideal) ℓ)

/-! ## The three index maps

Every window's block index at grid point `t` is `(t, 0, 0)`: the point is the batch. -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-! ## The input blocks

Element `(y₀, y₁, y₂)` of a [1, 2048, 512] block at block index `(t, 0, 0)` sits in the array at
`(t · 1 + y₀, 0 · 2048 + y₁, 0 · 512 + y₂) = (t, y₁, y₂)`: the block is batch `t`. -/

theorem iblk0_eq (c : Dev nD) (t : Fin cfg0.N) (b : Fin 16) (hb : b.val = t.val) :
    iblk m c 0 t = Cert.Spec.blockOf (V m c main_arg0) b := by
  funext y
  unfold iblk Cert.Spec.blockOf
  rw [View.read_apply]
  show V m c main_arg0 (((cfg0.win 0).blk t).view.emb y) = V m c main_arg0 (ix3 b (y 1) (y 2))
  refine congrArg (V m c main_arg0) ?_
  obtain ⟨e0, e1, e2, -⟩ := idx_facts t
  funext a; apply Fin.ext
  match a with
  | ⟨0, _⟩ => show win0_0.index t (0 : Fin 3) * 1 + 1 * (y 0).val = b.val; have : (y 0).val < 1 := (y 0).isLt; omega
  | ⟨1, _⟩ => show win0_0.index t (1 : Fin 3) * 2048 + 1 * (y 1).val = (y 1).val; omega
  | ⟨2, _⟩ => show win0_0.index t (2 : Fin 3) * 512 + 1 * (y 2).val = (y 2).val; omega

theorem iblk1_eq (c : Dev nD) (t : Fin cfg0.N) (b : Fin 16) (hb : b.val = t.val) :
    iblk m c 1 t = Cert.Spec.blockOf (V m c main_arg1) b := by
  funext y
  unfold iblk Cert.Spec.blockOf
  rw [View.read_apply]
  show V m c main_arg1 (((cfg0.win 1).blk t).view.emb y) = V m c main_arg1 (ix3 b (y 1) (y 2))
  refine congrArg (V m c main_arg1) ?_
  obtain ⟨-, -, -, e0, e1, e2, -⟩ := idx_facts t
  funext a; apply Fin.ext
  match a with
  | ⟨0, _⟩ => show win0_1.index t (0 : Fin 3) * 1 + 1 * (y 0).val = b.val; have : (y 0).val < 1 := (y 0).isLt; omega
  | ⟨1, _⟩ => show win0_1.index t (1 : Fin 3) * 2048 + 1 * (y 1).val = (y 1).val; omega
  | ⟨2, _⟩ => show win0_1.index t (2 : Fin 3) * 512 + 1 * (y 2).val = (y 2).val; omega

/-! ## From the output blocks to the output array

Nothing here depends on what the body computes: the statements hold for any function `f` of two input blocks giving
an output block. Only where the blocks sit in the arrays matters. -/

section Blocks

variable (f : Vec Ideal S1x2048x512 .f32 → Vec Ideal S1x2048x512 .f32 → Vec Ideal S1x2048x1 .f32)

/-- The [16, 2048, 1] array whose batch `b` is `f` of batch `b` of `Q` and of `S`. -/
def arrOf (Q S : Cert.Spec.SArg.Idx → EReal) : S16x2048x1.Idx → EReal :=
  fun i => f (Cert.Spec.blockOf Q (i 0 : Fin 16)) (Cert.Spec.blockOf S (i 0 : Fin 16)) (ix3 (0 : Fin 1) (i 1 : Fin 2048) (0 : Fin 1))

/-- A block that agrees, element by element, with an array under the output window's block at `t` is that array read
    through the block. -/
theorem cut_eq_read (t : Fin cfg0.N) (X : Vec Ideal S1x2048x1 .f32) (G : S16x2048x1.Idx → EReal)
    (h : ∀ j, X ((cfg0.win 2).xinj (grid0.coords t) j) = G (((cfg0.win 2).blk t).view.emb j)) :
    (cfg0.win 2).cut (grid0.coords t) X = ((cfg0.win 2).blk t).view.read (Elt Ideal) G := by
  funext j
  rw [View.read_apply]
  exact h j

/-- `f` of the two input blocks at point `t` is block `t` of `arrOf f` of the two arrays. -/
theorem block_eq (c : Dev nD) (t : Fin cfg0.N) :
    (cfg0.win 2).cut (grid0.coords t) (f (iblk m c 0 t) (iblk m c 1 t))
      = ((cfg0.win 2).blk t).view.read (Elt Ideal) (arrOf f (V m c main_arg0) (V m c main_arg1)) := by
  refine cut_eq_read t _ _ fun j => ?_
  unfold arrOf
  obtain ⟨-, -, -, -, -, -, e0, e1, e2⟩ := idx_facts t
  have h0 : ((((cfg0.win 2).blk t).view.emb j 0 : Fin 16) : ℕ) = t.val := by
    show win0_2.index t (0 : Fin 3) * 1 + 1 * (j 0).val = t.val
    have : (j 0).val < 1 := (j 0).isLt
    omega
  rw [iblk0_eq m c t _ h0, iblk1_eq m c t _ h0]
  refine congrArg (f _ _) ?_
  funext a; apply Fin.ext
  match a with
  | ⟨0, _⟩ => show (j 0).val = 0; have : (j 0).val < 1 := (j 0).isLt; omega
  | ⟨1, _⟩ => show (j 1).val = win0_2.index t (1 : Fin 3) * 2048 + 1 * (j 1).val; omega
  | ⟨2, _⟩ => show (j 2).val = 0; have : (j 2).val < 1 := (j 2).isLt; omega

end Blocks

/-! ## The output array after the run -/

/-- An index of the output array is in point `t`'s block iff each coordinate is in the block's range on its axis. -/
theorem mem_blk (t : Fin cfg0.N) (i : S16x2048x1.Idx) :
    i ∈ ((cfg0.win 2).blk t).view.set ↔ ∀ a : Fin 3, win0_2.index t a * S1x2048x1.size a ≤ (i a).val ∧ (i a).val < win0_2.index t a * S1x2048x1.size a + S1x2048x1.size a := by
  show i ∈ ((View.whole main_v0).slice (win0_2.rect t)).set ↔ _
  rw [View.set_slice_whole, Rect.mem_set_unit]
  exact Iff.rfl

/-- Every index `(b, r, 0)` of the output array is in the block of point `b`, which is written back. -/
theorem cover (i : S16x2048x1.Idx) : ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 1 := (i 2).isLt
  obtain ⟨t, ht⟩ : ∃ t : Fin cfg0.N, t.val = (i 0).val := ⟨⟨(i 0).val, by rw [show cfg0.N = 16 from N_0]; exact hi0⟩, rfl⟩
  refine ⟨t, flush0_2 t, ?_⟩
  rw [mem_blk]
  obtain ⟨-, -, -, -, -, -, e0, e1, e2⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1 ≤ (i 2).val ∧ (i 2).val < win0_2.index t (2 : Fin 3) * 1 + 1; omega

/-- What point `t` writes back to the output array is block `t` of `arrOf` of the body's function. -/
theorem flushed_eq (c : Dev nD) (t : Fin cfg0.N) :
    (dats m 0 c).flushed 2 t
      = ((cfg0.win 2).blk t).view.read (Elt Ideal) (arrOf (out0_2 (F := Ideal)) (V m c main_arg0) (V m c main_arg1)) := by
  show (cfg0.win 2).cut (grid0.coords t) ((dats m 0 c).after 2 t) = _
  rw [after0_2]
  exact block_eq m (out0_2 (F := Ideal)) c t

/-- So the output array ends holding it: the sixteen blocks tile the array. -/
theorem final (c : Dev nD) :
    (dats m 0 c).arrAt 2 cfg0.N = arrOf (out0_2 (F := Ideal)) (V m c main_arg0) (V m c main_arg1) :=
  (dats m 0 c).arrAt_eq_of_cover 2 (arrOf (out0_2 (F := Ideal)) (V m c main_arg0) (V m c main_arg1)) (fun t _ => flushed_eq m c t) cover

/-! ## The reshape after the region -/

/-- A [16, 2048, 1] array reshaped to [16, 2048] holds at `(b, r)` what the array holds at `(b, r, 0)`: the two
    indices have the same row-major position `2048 b + r`. -/
theorem reshape_apply (G : S16x2048x1.Idx → EReal) (h : S16x2048x1.ShapeCasts S16x2048) (i : S16x2048.Idx) :
    shapeCast S16x2048 G h i = G (ix3 (i 0 : Fin 16) (i 1 : Fin 2048) (0 : Fin 1)) := by
  refine shapeCast_apply G h i _ ?_
  rw [Shape.rowMajor_val_three, Shape.rowMajor_val_two]
  show ((i 0).val * 2048 + (i 1).val) * 1 + 0 = (i 0).val * 2048 + (i 1).val
  omega

/-- `arrOf f` at `(b, r, 0)` is entry `(0, r, 0)` of `f` of the two batches `b`. -/
theorem arrOf_apply (f : Vec Ideal S1x2048x512 .f32 → Vec Ideal S1x2048x512 .f32 → Vec Ideal S1x2048x1 .f32)
    (Q S : Cert.Spec.SArg.Idx → EReal) (b : Fin 16) (r : Fin 2048) :
    arrOf f Q S (ix3 b r (0 : Fin 1)) = f (Cert.Spec.blockOf Q b) (Cert.Spec.blockOf S b) (ix3 (0 : Fin 1) r (0 : Fin 1)) := rfl

/-- The program's result buffer after the reshape that follows the region: `result` of the two arrays as the region
    found them. -/
theorem tail_eq (c : Dev nD) :
    Pipeline.afterTail₀ cfgs (dats m) 0 (V0 m) [hostOps1] c main_v1 = result (V m c main_arg0) (V m c main_arg1) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = arrOf (out0_2 (F := Ideal)) (V m c main_arg0) (V m c main_arg1) :=
    (Pipeline.withArrays_arr spec0 launch0.win.arr_inj c _ _ 2).trans (final m c)
  rw [e]
  funext i
  show shapeCast S16x2048 (arrOf (out0_2 (F := Ideal)) (V m c main_arg0) (V m c main_arg1)) shapeCasts_S16x2048x1_S16x2048 i = _
  rw [reshape_apply]
  exact arrOf_apply (out0_2 (F := Ideal)) _ _ (i 0) (i 1)

end Lemmas

/-! ## The run -/

/-- The result buffer is neither scoped nor the array of a window: the region passes it by. -/
theorem main_v1_rest : main_v1 ∈ Pipeline.restRefs sig (cfgs 0).spec :=
  Pipeline.mem_restRefs_of main_v1 rfl (by decide)

/-- At the compiled mesh, from any memory with zero counters: every weakly fair execution of the kernel program
    terminates, its result buffer ends at `result` of the two argument arrays as launched, and the two arguments end
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v1 main_v1_rest).trans ((tail_eq m c).trans (by rw [V_main_arg0, V_main_arg1])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KV

end
-- ==== Proof.Finite.lean ====
/-
  From the precondition to real entries.

  The precondition says that both argument arrays pass "every entry has absolute value below +∞".  At the extended
  reals the absolute value of x is max x (-x), the bit pattern 0x7F800000 denotes ⊤, and max x (-x) < ⊤ rules out
  x = ⊥ and x = ⊤: every entry is (the embedding of) a real number, so each argument array is the embedding of an
  array of reals.
-/
import proofs.«168202_j14027363189464_2_alg».proof.Defs
import proofs.«168202_j14027363189464_2_alg».proof.Proof.Gen.Pre_finite_inputs
import proofs.«168202_j14027363189464_2_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.SL.Sem Idealize.ShloMosaic.ValueIdx

/-- The rank-0 shape has one index. -/
instance : Subsingleton Cert.Pre_finite_inputs.S_.Idx := ⟨fun a b => funext fun d => d.elim0⟩

/-- The bit pattern of `+∞` in f32 denotes `⊤`. -/
theorem ofBits_pos_inf_f32 : Ideal.ofBits .f32 0x7F800000#32 = ⊤ := by simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test, read back: the comparison `|x| < +∞` came out 1, so `x` is a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  refine real_of_abs_lt_top x ?_
  rw [Ideal.hostAbsf_def, Ideal.ofBits_def, ofBits_pos_inf_f32] at h
  by_contra hn
  have : FloatOps.cmpf (F := Ideal) (φ := .f32) .olt (FloatOps.absf (F := Ideal) (φ := .f32) x) (⊤ : EReal) = 0#1 := by
    show BitVec.ofBool (decide (max x (-x) < ⊤)) = 0#1
    rw [decide_eq_false hn]; rfl
  rw [this] at h
  exact absurd h (by decide)

open Cert.Pre_finite_inputs in
/-- An array that passes the whole-array test (the conjunction, over all its entries, of `|x| < +∞` is 1) has
    only real entries. -/
theorem all_real [hP : Cert.Pre_finite_inputs.Facts] (X : FVec Ideal S16x2048x512 .f32)
    (h : Host.reduce IntOp.andi
        (cmpf .olt (Host.absf X)
          (broadcastInDim S16x2048x512 ![] hP.bcast_S_S16x2048x512 (constant (F := Ideal) S_ .f32 0x7F800000#32)))
        (constantI S_ 1 1#1) hP.reducesTo_S16x2048x512_S_d0_1_2 hP.h_S_ ix0 = 1#1)
    (i : S16x2048x512.Idx) : ∃ r : ℝ, X i = (r : EReal) := by
  have e := Host.reduce_andi_all _ _ _ _ _ h i
  exact real_of_test (X i) e

/-- An array of extended reals all of whose entries are real is the embedding of an array of reals. -/
theorem exists_real_array {ι : Type} (X : ι → EReal) (h : ∀ i, ∃ r : ℝ, X i = (r : EReal)) :
    ∃ q : ι → ℝ, X = fun i => ((q i : ℝ) : EReal) :=
  ⟨fun i => Classical.choose (h i), funext fun i => Classical.choose_spec (h i)⟩

/-- Under the precondition both argument arrays are embeddings of arrays of reals. -/
theorem real_args [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∃ q : Cert.Spec.SArg.Idx → ℝ, m ((c.tc : Thread Cert.KernelIdeal.nD Cert.KernelIdeal.τ).loc Cert.KernelIdeal.main_arg0) = fun i => ((q i : ℝ) : EReal))
    ∧ (∃ s : Cert.Spec.SArg.Idx → ℝ, m ((c.tc : Thread Cert.KernelIdeal.nD Cert.KernelIdeal.τ).loc Cert.KernelIdeal.main_arg1) = fun i => ((s i : ℝ) : EReal)) := by
  have h0 := congrFun (h c) ix0
  dsimp only [Cert.Pre_finite_inputs.fn] at h0
  obtain ⟨h1, h2⟩ := IntOp.andi_eq_one.1 h0
  exact ⟨exists_real_array _ (all_real _ h1), exists_real_array _ (all_real _ h2)⟩

end Cert.Finite

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.KernelOps.lean ====
/-
  The kernel body's operations that are not pointwise, read at explicit coordinates, at the extended reals.

  A [2048, 512] array of logits is reduced along its rows (a sum, or a maximum started from `-∞`), the [2048] result kept
  as a [2048, 1] column, and a column is spread back over the 512 lanes of its row.  A chunk of logits is the product of
  the [2048, 512] query block with the transpose of a [512, 512] chunk of support rows: entry `(r, j)` is the inner
  product of query row `r` and the chunk's row `j`.
-/
import proofs.«168202_j14027363189464_2_alg».proof.Proof.Gen.KernelIdeal.Skeleton
import proofs.«168202_j14027363189464_2_alg».proof.Proof.LibKeepdims
import proofs.«168202_j14027363189464_2_alg».proof.Proof.LibColumns
import proofs.«168202_j14027363189464_2_alg».proof.Proof.LibPlain
import Idealize.ShloMosaic.Lib.ValueLayout
import Idealize.ShloMosaic.Lib.ValueIdx
import Idealize.ShloMosaic.PureOps.Ideal.Laws

noncomputable section

namespace Cert.KernelIdeal.Row

open Idealize.ShloMosaic Idealize.ShloMosaic.ValueIdx Cert.KernelIdeal Cert.KernelIdeal.Gen

/-- A row sum kept as a column: at `(r, 0)` the sum of row `r`. -/
theorem rowsum_col (X : FVec Ideal S2048x512 .f32) (h : S2048x512.Reduces [(1 : Fin 2)] S2048) (hφ : FKind.Formats .f32)
    (hacc : (0x00000000#32 : BitVec 32) = FKind.add.neutral .f32 hφ) (hc : S2048.ShapeCasts S2048x1) (r : Fin 2048) :
    shapeCast S2048x1 (multiReduction .add [(1 : Fin 2)] S2048 X 0x00000000#32 h hφ hacc) hc (ix2 r (0 : Fin 1))
      = ∑ j : Fin 512, X (ix2 r j) :=
  (Cert.LibKeepdims.shapeCast_a_a1_apply _ hc r 0).trans (Cert.LibColumns.rowSum_apply X h hφ hacc r)

/-- A row maximum from `-∞` kept as a column: at `(r, 0)` the fold of `max` from `⊥` over row `r`. -/
theorem rowmax_col (X : FVec Ideal S2048x512 .f32) (h : S2048x512.Reduces [(1 : Fin 2)] S2048) (hφ : FKind.Formats .f32)
    (hacc : (0xFF800000#32 : BitVec 32) = FKind.maximumf.neutral .f32 hφ) (hc : S2048.ShapeCasts S2048x1) (r : Fin 2048) :
    shapeCast S2048x1 (multiReduction .maximumf [(1 : Fin 2)] S2048 X 0xFF800000#32 h hφ hacc) hc (ix2 r (0 : Fin 1))
      = (Finset.univ : Finset (Fin 512)).fold max ⊥ (fun j => X (ix2 r j)) :=
  (Cert.LibKeepdims.shapeCast_a_a1_apply _ hc r 0).trans (Cert.LibPlain.rowMax_apply X h hφ hacc r)

/-- A column spread over the lanes: at `(r, j)` the column's entry `(r, 0)`. -/
theorem spread_apply (v : FVec Ideal S2048x1 .f32) (h : S2048x1.Broadcasts S2048x512) (r : Fin 2048) (j : Fin 512) :
    broadcastTo S2048x512 v h (ix2 r j) = v (ix2 r (0 : Fin 1)) :=
  Cert.LibKeepdims.broadcastTo_a1_ab_apply v h r j

/-- The query block with its unit batch axis dropped. -/
theorem pay2_apply (v0 : Vec Ideal S1x2048x512 .f32) (r : Fin 2048) (k : Fin 512) :
    k0_pay2 v0 (ix2 r k) = v0 (ix3 (0 : Fin 1) r k) :=
  shapeCast_1ab_ab_apply v0 _ r k

/-- The column of scores with a unit batch axis put in front. -/
theorem addUnit_col_apply (v : FVec Ideal S2048x1 .f32) (h : S2048x1.ShapeCasts S1x2048x1) (r : Fin 2048) :
    shapeCast S1x2048x1 v h (ix3 (0 : Fin 1) r (0 : Fin 1)) = v (ix2 r (0 : Fin 1)) :=
  shapeCast_ab_1ab_apply v h 0 r 0

abbrev D := dot_S2048x512_S512x512_S2048x512_1_1_0_0_n_n

theorem lhs0 (i : S2048x512.Idx) (q : D.contr.Idx) : (D.lhsIdx i q 0).val = (i 0).val := by
  unfold DotDims.lhsIdx
  rw [dif_neg (show ¬(0 : Fin S2048x512.rank) ∈ D.lhsBatch by decide),
    dif_pos (show (0 : Fin S2048x512.rank) ∈ D.lhsNonContracting by decide)]
  rfl

theorem rhs0 (i : S2048x512.Idx) (q : D.contr.Idx) : (D.rhsIdx i q 0).val = (i 1).val := by
  unfold DotDims.rhsIdx
  rw [dif_neg (show ¬(0 : Fin S512x512.rank) ∈ D.rhsBatch by decide),
    dif_pos (show (0 : Fin S512x512.rank) ∈ D.rhsNonContracting by decide)]
  rfl

/-- A chunk of logits: the query block times the transpose of a chunk of support rows, accumulated from zero, at
    `(r, j)`: the inner product of query row `r` with the chunk's row `j`. -/
theorem logits_apply (A : FVec Ideal S2048x512 .f32) (vc : Vec Ideal S1x512x512 .f32)
    (hc : S1x512x512.ShapeCasts S512x512) (r : Fin 2048) (j : Fin 512) :
    matmul D (some .fp32) A (shapeCast S512x512 vc hc : FVec Ideal S512x512 .f32) (constant (F := Ideal) S2048x512 .f32 0x00000000#32) (ix2 r j)
      = ∑ k : Fin 512, A (ix2 r k) * vc (ix3 (0 : Fin 1) j k) := by
  show FloatOps.matmul D (some .fp32) A (shapeCast S512x512 vc hc : FVec Ideal S512x512 .f32) (constant (F := Ideal) S2048x512 .f32 0x00000000#32) (ix2 r j) = _
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r j) ((contrEquiv1 D 512 rfl rfl).symm k) = ix2 r k := funext fun a => Fin.ext (by
    match a with
    | ⟨0, _⟩ => exact lhs0 _ _
    | ⟨1, _⟩ => exact (D.lhsIdx_val_of_single rfl _ _).trans hk)
  have er : D.rhsIdx (ix2 r j) ((contrEquiv1 D 512 rfl rfl).symm k) = ix2 j k := funext fun a => Fin.ext (by
    match a with
    | ⟨0, _⟩ => exact rhs0 _ _
    | ⟨1, _⟩ => exact (D.rhsIdx_val_of_single rfl _ _).trans hk)
  rw [el, er, shapeCast_1ab_ab_apply]

end Cert.KernelIdeal.Row

end
-- ==== Proof.KernelPay.lean ====
/-
  The kernel body's values, one at a time, read at row `r` (and lane `j`) in terms of the values before them.

  The body keeps three columns per row — the running maximum, the sum of weights and the sum of weighted shifted
  logits — and updates them once per chunk of 512 logits: the new maximum is the old one against the chunk's row
  maximum; the rescaling factor is the exponential of old minus new maximum; the chunk's shifted logits are the logits
  minus the new maximum and their weights the exponentials of those; the new sums are the rescaled old ones (the second
  corrected by the rescaled old first times the change of maximum) plus the chunk's row sums.  The score is the last
  maximum plus the quotient of the two last sums.  Each statement below is one of these lines at explicit coordinates.
-/
import proofs.«168202_j14027363189464_2_alg».proof.Proof.KernelOps

noncomputable section

namespace Cert.KernelIdeal.Row

open Idealize.ShloMosaic Idealize.ShloMosaic.ValueIdx Cert.KernelIdeal Cert.KernelIdeal.Gen

/-- The value the running maximum starts from (a large negative number), as an extended real. -/
abbrev negBig : EReal := Ideal.ofBits .f32 0xFF333332#32
/-- The value the running sums start from. -/
abbrev zeroF : EReal := Ideal.ofBits .f32 0x00000000#32

variable (v0 : Vec Ideal S1x2048x512 .f32) (v5 v29 v53 v77 : Vec Ideal S1x512x512 .f32)
variable (v1 v38 v39 v86 : FVec Ideal S2048x512 .f32) (v10 v19 v28 v34 v36 v40 v58 v67 v76 v82 v84 : FVec Ideal S2048x1 .f32)
variable (r : Fin 2048) (j : Fin 512)

/-- The exponential of a vector, read at an index. -/
theorem exp_at {s : Shape} {φ : FTy} (a : FVec Ideal s φ) (i : s.Idx) : exp a i = Ideal.exp (a i) := rfl

/-! ## Chunk 1 -/

theorem pay3_at : k0_pay3 (F := Ideal) (ix2 r (0 : Fin 1)) = negBig := rfl

theorem pay4_at : k0_pay4 (F := Ideal) (ix2 r (0 : Fin 1)) = zeroF := rfl

theorem pay5_def : k0_pay5 v0 v5 = matmul dot_S2048x512_S512x512_S2048x512_1_1_0_0_n_n (some .fp32) (k0_pay2 v0) (shapeCast S512x512 v5 Gen.shapeCasts_S1x512x512_S512x512 : FVec Ideal S512x512 .f32) (constant (F := Ideal) S2048x512 .f32 0x00000000#32) := rfl

theorem pay5_at : k0_pay5 v0 v5 (ix2 r j) = ∑ k : Fin 512, v0 (ix3 (0 : Fin 1) r k) * v5 (ix3 (0 : Fin 1) j k) :=
  (congrFun (pay5_def v0 v5) (ix2 r j)).trans ((logits_apply (k0_pay2 v0) v5 _ r j).trans
    (Finset.sum_congr rfl fun k _ => congrArg (· * v5 (ix3 (0 : Fin 1) j k)) (pay2_apply v0 r k)))

theorem pay6_def : k0_pay6 v0 v5 = maximumf (k0_pay3 (F := Ideal)) (shapeCast S2048x1 (multiReduction .maximumf [1] S2048 (k0_pay5 v0 v5) 0xFF800000#32 Gen.reduces_S2048x512_S2048 (.inl rfl) rfl) Gen.shapeCasts_S2048_S2048x1) := rfl

theorem pay6_at : k0_pay6 v0 v5 (ix2 r (0 : Fin 1))
    = max negBig ((Finset.univ : Finset (Fin 512)).fold max ⊥ (fun j => k0_pay5 v0 v5 (ix2 r j))) :=
  (congrFun (pay6_def v0 v5) (ix2 r (0 : Fin 1))).trans ((maximumf_apply _ _ _).trans
    (congrArg₂ max (pay3_at r) (rowmax_col (k0_pay5 v0 v5) _ _ _ _ r)))

theorem pay7_def : k0_pay7 v0 v5 = exp (subf (k0_pay3 (F := Ideal)) (k0_pay6 v0 v5)) := rfl

theorem pay7_at : k0_pay7 v0 v5 (ix2 r (0 : Fin 1)) = Ideal.exp (negBig - k0_pay6 v0 v5 (ix2 r (0 : Fin 1))) :=
  (congrFun (pay7_def v0 v5) (ix2 r (0 : Fin 1))).trans ((exp_at _ _).trans
    (congrArg Ideal.exp ((subf_apply _ _ _).trans (congrArg (· - k0_pay6 v0 v5 (ix2 r (0 : Fin 1))) (pay3_at r)))))

theorem pay8_def : k0_pay8 v0 v5
    = subf (k0_pay5 v0 v5) (broadcastTo S2048x512 (k0_pay6 v0 v5) Gen.broadcasts_S2048x1_S2048x512) := rfl

theorem pay8_at : k0_pay8 v0 v5 (ix2 r j) = k0_pay5 v0 v5 (ix2 r j) - k0_pay6 v0 v5 (ix2 r (0 : Fin 1)) :=
  (congrFun (pay8_def v0 v5) (ix2 r j)).trans ((subf_apply _ _ _).trans
    (congrArg (k0_pay5 v0 v5 (ix2 r j) - ·) (spread_apply (k0_pay6 v0 v5) _ r j)))

theorem pay9_def : k0_pay9 v0 v5 = exp (k0_pay8 v0 v5) := rfl

theorem pay9_at : k0_pay9 v0 v5 (ix2 r j) = Ideal.exp (k0_pay8 v0 v5 (ix2 r j)) :=
  (congrFun (pay9_def v0 v5) (ix2 r j)).trans (exp_at _ _)

theorem pay10_def : k0_pay10 v0 v5
    = addf (mulf (k0_pay7 v0 v5) (k0_pay4 (F := Ideal))) (shapeCast S2048x1 (multiReduction .add [1] S2048 (k0_pay9 v0 v5) 0x00000000#32 Gen.reduces_S2048x512_S2048 (.inl rfl) rfl) Gen.shapeCasts_S2048_S2048x1) := rfl

theorem pay10_at : k0_pay10 v0 v5 (ix2 r (0 : Fin 1))
    = k0_pay7 v0 v5 (ix2 r (0 : Fin 1)) * zeroF + ∑ j : Fin 512, k0_pay9 v0 v5 (ix2 r j) :=
  (congrFun (pay10_def v0 v5) (ix2 r (0 : Fin 1))).trans ((addf_apply _ _ _).trans (congrArg₂ (· + ·)
    ((mulf_apply _ _ _).trans (congrArg (k0_pay7 v0 v5 (ix2 r (0 : Fin 1)) * ·) (pay4_at r)))
    (rowsum_col (k0_pay9 v0 v5) _ _ _ _ r)))

theorem pay11_def : k0_pay11 v0 v5
    = addf (addf (mulf (k0_pay7 v0 v5) (k0_pay4 (F := Ideal)))
          (mulf (mulf (k0_pay7 v0 v5) (subf (k0_pay3 (F := Ideal)) (k0_pay6 v0 v5))) (k0_pay4 (F := Ideal))))
        (shapeCast S2048x1 (multiReduction .add [1] S2048 (mulf (k0_pay9 v0 v5) (k0_pay8 v0 v5)) 0x00000000#32 Gen.reduces_S2048x512_S2048 (.inl rfl) rfl) Gen.shapeCasts_S2048_S2048x1) := rfl

theorem pay11_at : k0_pay11 v0 v5 (ix2 r (0 : Fin 1))
    = (k0_pay7 v0 v5 (ix2 r (0 : Fin 1)) * zeroF
        + k0_pay7 v0 v5 (ix2 r (0 : Fin 1)) * (negBig - k0_pay6 v0 v5 (ix2 r (0 : Fin 1))) * zeroF)
      + ∑ j : Fin 512, k0_pay9 v0 v5 (ix2 r j) * k0_pay8 v0 v5 (ix2 r j) :=
  (congrFun (pay11_def v0 v5) (ix2 r (0 : Fin 1))).trans ((addf_apply _ _ _).trans (congrArg₂ (· + ·)
    ((addf_apply _ _ _).trans (congrArg₂ (· + ·)
      ((mulf_apply _ _ _).trans (congrArg (k0_pay7 v0 v5 (ix2 r (0 : Fin 1)) * ·) (pay4_at r)))
      ((mulf_apply _ _ _).trans (congrArg₂ (· * ·)
        ((mulf_apply _ _ _).trans (congrArg (k0_pay7 v0 v5 (ix2 r (0 : Fin 1)) * ·)
          ((subf_apply _ _ _).trans (congrArg (· - k0_pay6 v0 v5 (ix2 r (0 : Fin 1))) (pay3_at r)))))
        (pay4_at r)))))
    ((rowsum_col (mulf (k0_pay9 v0 v5) (k0_pay8 v0 v5)) _ _ _ _ r).trans
      (Finset.sum_congr rfl fun j _ => mulf_apply _ _ _))))

/-! ## Chunk 2 -/

theorem pay12_def : k0_pay12 v0 v29 = matmul dot_S2048x512_S512x512_S2048x512_1_1_0_0_n_n (some .fp32) (k0_pay2 v0) (shapeCast S512x512 v29 Gen.shapeCasts_S1x512x512_S512x512 : FVec Ideal S512x512 .f32) (constant (F := Ideal) S2048x512 .f32 0x00000000#32) := rfl

theorem pay12_at : k0_pay12 v0 v29 (ix2 r j) = ∑ k : Fin 512, v0 (ix3 (0 : Fin 1) r k) * v29 (ix3 (0 : Fin 1) j k) :=
  (congrFun (pay12_def v0 v29) (ix2 r j)).trans ((logits_apply (k0_pay2 v0) v29 _ r j).trans
    (Finset.sum_congr rfl fun k _ => congrArg (· * v29 (ix3 (0 : Fin 1) j k)) (pay2_apply v0 r k)))

theorem pay13_def : k0_pay13 v0 v5 v29 = maximumf (k0_pay6 v0 v5) (shapeCast S2048x1 (multiReduction .maximumf [1] S2048 (k0_pay12 v0 v29) 0xFF800000#32 Gen.reduces_S2048x512_S2048 (.inl rfl) rfl) Gen.shapeCasts_S2048_S2048x1) := rfl

theorem pay13_at : k0_pay13 v0 v5 v29 (ix2 r (0 : Fin 1))
    = max (k0_pay6 v0 v5 (ix2 r (0 : Fin 1))) ((Finset.univ : Finset (Fin 512)).fold max ⊥ (fun j => k0_pay12 v0 v29 (ix2 r j))) :=
  (congrFun (pay13_def v0 v5 v29) (ix2 r (0 : Fin 1))).trans ((maximumf_apply _ _ _).trans
    (congrArg (max (k0_pay6 v0 v5 (ix2 r (0 : Fin 1))) ·) (rowmax_col (k0_pay12 v0 v29) _ _ _ _ r)))

theorem pay14_def : k0_pay14 v0 v5 v29 = exp (subf (k0_pay6 v0 v5) (k0_pay13 v0 v5 v29)) := rfl

theorem pay14_at : k0_pay14 v0 v5 v29 (ix2 r (0 : Fin 1))
    = Ideal.exp (k0_pay6 v0 v5 (ix2 r (0 : Fin 1)) - k0_pay13 v0 v5 v29 (ix2 r (0 : Fin 1))) :=
  (congrFun (pay14_def v0 v5 v29) (ix2 r (0 : Fin 1))).trans ((exp_at _ _).trans (congrArg Ideal.exp (subf_apply _ _ _)))

theorem pay15_def : k0_pay15 v0 v5 v29
    = subf (k0_pay12 v0 v29) (broadcastTo S2048x512 (k0_pay13 v0 v5 v29) Gen.broadcasts_S2048x1_S2048x512) := rfl

theorem pay15_at : k0_pay15 v0 v5 v29 (ix2 r j) = k0_pay12 v0 v29 (ix2 r j) - k0_pay13 v0 v5 v29 (ix2 r (0 : Fin 1)) :=
  (congrFun (pay15_def v0 v5 v29) (ix2 r j)).trans ((subf_apply _ _ _).trans
    (congrArg (k0_pay12 v0 v29 (ix2 r j) - ·) (spread_apply (k0_pay13 v0 v5 v29) _ r j)))

theorem pay16_def : k0_pay16 v0 v5 v29 = exp (k0_pay15 v0 v5 v29) := rfl

theorem pay16_at : k0_pay16 v0 v5 v29 (ix2 r j) = Ideal.exp (k0_pay15 v0 v5 v29 (ix2 r j)) :=
  (congrFun (pay16_def v0 v5 v29) (ix2 r j)).trans (exp_at _ _)

theorem pay17_def : k0_pay17 v0 v5 v29 = mulf (k0_pay14 v0 v5 v29) (k0_pay10 v0 v5) := rfl

theorem pay17_at : k0_pay17 v0 v5 v29 (ix2 r (0 : Fin 1))
    = k0_pay14 v0 v5 v29 (ix2 r (0 : Fin 1)) * k0_pay10 v0 v5 (ix2 r (0 : Fin 1)) :=
  (congrFun (pay17_def v0 v5 v29) (ix2 r (0 : Fin 1))).trans (mulf_apply _ _ _)

theorem pay18_def : k0_pay18 v39 v40 = addf v40 (shapeCast S2048x1 (multiReduction .add [1] S2048 v39 0x00000000#32 Gen.reduces_S2048x512_S2048 (.inl rfl) rfl) Gen.shapeCasts_S2048_S2048x1) := rfl

theorem pay18_at : k0_pay18 v39 v40 (ix2 r (0 : Fin 1)) = v40 (ix2 r (0 : Fin 1)) + ∑ j : Fin 512, v39 (ix2 r j) :=
  (congrFun (pay18_def v39 v40) (ix2 r (0 : Fin 1))).trans ((addf_apply _ _ _).trans
    (congrArg (v40 (ix2 r (0 : Fin 1)) + ·) (rowsum_col v39 _ _ _ _ r)))

/-! ## Chunk 3 -/

theorem pay19_def : k0_pay19 v1 v53
    = matmul dot_S2048x512_S512x512_S2048x512_1_1_0_0_n_n (some .fp32) v1
        (shapeCast S512x512 v53 Gen.shapeCasts_S1x512x512_S512x512 : FVec Ideal S512x512 .f32)
        (constant (F := Ideal) S2048x512 .f32 0x00000000#32) := rfl

theorem pay19_at : k0_pay19 v1 v53 (ix2 r j) = ∑ k : Fin 512, v1 (ix2 r k) * v53 (ix3 (0 : Fin 1) j k) :=
  (congrFun (pay19_def v53 v1) (ix2 r j)).trans (logits_apply v1 v53 _ r j)

theorem pay20_def : k0_pay20 v1 v34 v53 = maximumf v34
    (shapeCast S2048x1 (multiReduction .maximumf [1] S2048 (k0_pay19 v1 v53) 0xFF800000#32 Gen.reduces_S2048x512_S2048 (.inl rfl) rfl)
      Gen.shapeCasts_S2048_S2048x1) := rfl

theorem pay20_at : k0_pay20 v1 v34 v53 (ix2 r (0 : Fin 1))
    = max (v34 (ix2 r (0 : Fin 1))) ((Finset.univ : Finset (Fin 512)).fold max ⊥ (fun j => k0_pay19 v1 v53 (ix2 r j))) :=
  (congrFun (pay20_def v53 v1 v34) (ix2 r (0 : Fin 1))).trans ((maximumf_apply _ _ _).trans
    (congrArg (max (v34 (ix2 r (0 : Fin 1)))) (rowmax_col (k0_pay19 v1 v53) _ _ _ _ r)))

theorem pay21_def : k0_pay21 v1 v34 v53 = exp (subf v34 (k0_pay20 v1 v34 v53)) := rfl

theorem pay21_at : k0_pay21 v1 v34 v53 (ix2 r (0 : Fin 1))
    = Ideal.exp (v34 (ix2 r (0 : Fin 1)) - k0_pay20 v1 v34 v53 (ix2 r (0 : Fin 1))) :=
  (congrFun (pay21_def v53 v1 v34) (ix2 r (0 : Fin 1))).trans ((exp_at _ _).trans
    (congrArg Ideal.exp (subf_apply _ _ _)))

theorem pay22_def : k0_pay22 v1 v34 v53
    = subf (k0_pay19 v1 v53) (broadcastTo S2048x512 (k0_pay20 v1 v34 v53) Gen.broadcasts_S2048x1_S2048x512) := rfl

theorem pay22_at : k0_pay22 v1 v34 v53 (ix2 r j) = k0_pay19 v1 v53 (ix2 r j) - k0_pay20 v1 v34 v53 (ix2 r (0 : Fin 1)) :=
  (congrFun (pay22_def v53 v1 v34) (ix2 r j)).trans ((subf_apply _ _ _).trans
    (congrArg (k0_pay19 v1 v53 (ix2 r j) - ·) (spread_apply (k0_pay20 v1 v34 v53) _ r j)))

theorem pay23_def : k0_pay23 v1 v34 v53 = exp (k0_pay22 v1 v34 v53) := rfl

theorem pay23_at : k0_pay23 v1 v34 v53 (ix2 r j) = Ideal.exp (k0_pay22 v1 v34 v53 (ix2 r j)) :=
  (congrFun (pay23_def v53 v1 v34) (ix2 r j)).trans (exp_at _ _)

theorem pay24_def : k0_pay24 v1 v34 v39 v40 v53 = addf (mulf (k0_pay21 v1 v34 v53) (k0_pay18 v39 v40))
    (shapeCast S2048x1 (multiReduction .add [1] S2048 (k0_pay23 v1 v34 v53) 0x00000000#32 Gen.reduces_S2048x512_S2048 (.inl rfl) rfl)
      Gen.shapeCasts_S2048_S2048x1) := rfl

theorem pay24_at : k0_pay24 v1 v34 v39 v40 v53 (ix2 r (0 : Fin 1))
    = k0_pay21 v1 v34 v53 (ix2 r (0 : Fin 1)) * k0_pay18 v39 v40 (ix2 r (0 : Fin 1))
      + ∑ j : Fin 512, k0_pay23 v1 v34 v53 (ix2 r j) :=
  (congrFun (pay24_def v53 v1 v39 v34 v40) (ix2 r (0 : Fin 1))).trans ((addf_apply _ _ _).trans
    (congrArg₂ (· + ·) (mulf_apply _ _ _) (rowsum_col (k0_pay23 v1 v34 v53) _ _ _ _ r)))

/-- The second sum after chunk 2 (formed inside the third update). -/
def n2 : EReal :=
  (v36 (ix2 r (0 : Fin 1)) * v28 (ix2 r (0 : Fin 1))
      + v36 (ix2 r (0 : Fin 1)) * (v10 (ix2 r (0 : Fin 1)) - v34 (ix2 r (0 : Fin 1))) * v19 (ix2 r (0 : Fin 1)))
    + ∑ j : Fin 512, v39 (ix2 r j) * v38 (ix2 r j)

/-- A sum of two products of columns plus the row sums of a product of two arrays, kept as a column, at `(r, 0)`:
    the shape every update of the second sum has. -/
theorem sum2_at (a b c d : FVec Ideal S2048x1 .f32) (X Y : FVec Ideal S2048x512 .f32) :
    addf (addf (mulf a b) (mulf (mulf a c) d))
        (shapeCast S2048x1 (multiReduction .add [1] S2048 (mulf X Y) 0x00000000#32 Gen.reduces_S2048x512_S2048 (.inl rfl) rfl)
          Gen.shapeCasts_S2048_S2048x1) (ix2 r (0 : Fin 1))
      = (a (ix2 r (0 : Fin 1)) * b (ix2 r (0 : Fin 1))
          + a (ix2 r (0 : Fin 1)) * c (ix2 r (0 : Fin 1)) * d (ix2 r (0 : Fin 1)))
        + ∑ j : Fin 512, X (ix2 r j) * Y (ix2 r j) :=
  (addf_apply _ _ _).trans (congrArg₂ (· + ·)
    ((addf_apply _ _ _).trans (congrArg₂ (· + ·) (mulf_apply _ _ _)
      ((mulf_apply _ _ _).trans (congrArg (· * d (ix2 r (0 : Fin 1))) (mulf_apply _ _ _)))))
    ((rowsum_col (mulf X Y) _ _ _ _ r).trans (Finset.sum_congr rfl fun j _ => mulf_apply _ _ _)))

theorem n2_def : n2 v38 v39 v10 v19 v28 v34 v36 r
    = (v36 (ix2 r (0 : Fin 1)) * v28 (ix2 r (0 : Fin 1))
        + v36 (ix2 r (0 : Fin 1)) * (v10 (ix2 r (0 : Fin 1)) - v34 (ix2 r (0 : Fin 1))) * v19 (ix2 r (0 : Fin 1)))
      + ∑ j : Fin 512, v39 (ix2 r j) * v38 (ix2 r j) := rfl

/-- The second sum after chunk 2, as the array the third update forms, at `(r, 0)`. -/
theorem n2_at : addf (addf (mulf v36 v28) (mulf (mulf v36 (subf v10 v34)) v19))
        (shapeCast S2048x1 (multiReduction .add [1] S2048 (mulf v39 v38) 0x00000000#32 Gen.reduces_S2048x512_S2048 (.inl rfl) rfl)
          Gen.shapeCasts_S2048_S2048x1) (ix2 r (0 : Fin 1))
      = n2 v38 v39 v10 v19 v28 v34 v36 r :=
  ((sum2_at r v36 v28 (subf v10 v34) v19 v39 v38).trans
    (congrArg (fun t => (v36 (ix2 r (0 : Fin 1)) * v28 (ix2 r (0 : Fin 1)) + v36 (ix2 r (0 : Fin 1)) * t * v19 (ix2 r (0 : Fin 1)))
        + ∑ j : Fin 512, v39 (ix2 r j) * v38 (ix2 r j)) (subf_apply v10 v34 (ix2 r (0 : Fin 1))))).trans
    (n2_def v38 v39 v10 v19 v28 v34 v36 r).symm

theorem pay25_def : k0_pay25 v1 v10 v19 v28 v34 v36 v38 v39 v40 v53
    = addf (addf (mulf (k0_pay21 v1 v34 v53)
            (addf (addf (mulf v36 v28) (mulf (mulf v36 (subf v10 v34)) v19))
              (shapeCast S2048x1 (multiReduction .add [1] S2048 (mulf v39 v38) 0x00000000#32 Gen.reduces_S2048x512_S2048 (.inl rfl) rfl)
                Gen.shapeCasts_S2048_S2048x1)))
          (mulf (mulf (k0_pay21 v1 v34 v53) (subf v34 (k0_pay20 v1 v34 v53))) (k0_pay18 v39 v40)))
        (shapeCast S2048x1 (multiReduction .add [1] S2048 (mulf (k0_pay23 v1 v34 v53) (k0_pay22 v1 v34 v53)) 0x00000000#32
            Gen.reduces_S2048x512_S2048 (.inl rfl) rfl) Gen.shapeCasts_S2048_S2048x1) := rfl

theorem pay25_at : k0_pay25 v1 v10 v19 v28 v34 v36 v38 v39 v40 v53 (ix2 r (0 : Fin 1))
    = (k0_pay21 v1 v34 v53 (ix2 r (0 : Fin 1)) * n2 v38 v39 v10 v19 v28 v34 v36 r
        + k0_pay21 v1 v34 v53 (ix2 r (0 : Fin 1))
            * (v34 (ix2 r (0 : Fin 1)) - k0_pay20 v1 v34 v53 (ix2 r (0 : Fin 1))) * k0_pay18 v39 v40 (ix2 r (0 : Fin 1)))
      + ∑ j : Fin 512, k0_pay23 v1 v34 v53 (ix2 r j) * k0_pay22 v1 v34 v53 (ix2 r j) :=
  (congrFun (pay25_def v53 v1 v38 v39 v10 v19 v28 v34 v36 v40) (ix2 r (0 : Fin 1))).trans
    ((sum2_at r (k0_pay21 v1 v34 v53) _ (subf v34 (k0_pay20 v1 v34 v53)) (k0_pay18 v39 v40)
        (k0_pay23 v1 v34 v53) (k0_pay22 v1 v34 v53)).trans
      (congrArg₂ (fun t u => (k0_pay21 v1 v34 v53 (ix2 r (0 : Fin 1)) * t
            + k0_pay21 v1 v34 v53 (ix2 r (0 : Fin 1)) * u * k0_pay18 v39 v40 (ix2 r (0 : Fin 1)))
          + ∑ j : Fin 512, k0_pay23 v1 v34 v53 (ix2 r j) * k0_pay22 v1 v34 v53 (ix2 r j))
        (n2_at v38 v39 v10 v19 v28 v34 v36 r) (subf_apply v34 (k0_pay20 v1 v34 v53) (ix2 r (0 : Fin 1)))))

/-! ## Chunk 4 and the score -/

theorem pay26_def : k0_pay26 v1 v77
    = matmul dot_S2048x512_S512x512_S2048x512_1_1_0_0_n_n (some .fp32) v1
        (shapeCast S512x512 v77 Gen.shapeCasts_S1x512x512_S512x512 : FVec Ideal S512x512 .f32)
        (constant (F := Ideal) S2048x512 .f32 0x00000000#32) := rfl

theorem pay26_at : k0_pay26 v1 v77 (ix2 r j) = ∑ k : Fin 512, v1 (ix2 r k) * v77 (ix3 (0 : Fin 1) j k) :=
  (congrFun (pay26_def v77 v1) (ix2 r j)).trans (logits_apply v1 v77 _ r j)

theorem pay27_def : k0_pay27 v1 v34 v53 v77 = maximumf (k0_pay20 v1 v34 v53)
    (shapeCast S2048x1 (multiReduction .maximumf [1] S2048 (k0_pay26 v1 v77) 0xFF800000#32 Gen.reduces_S2048x512_S2048 (.inl rfl) rfl)
      Gen.shapeCasts_S2048_S2048x1) := rfl

theorem pay27_at : k0_pay27 v1 v34 v53 v77 (ix2 r (0 : Fin 1))
    = max (k0_pay20 v1 v34 v53 (ix2 r (0 : Fin 1))) ((Finset.univ : Finset (Fin 512)).fold max ⊥ (fun j => k0_pay26 v1 v77 (ix2 r j))) :=
  (congrFun (pay27_def v53 v77 v1 v34) (ix2 r (0 : Fin 1))).trans ((maximumf_apply _ _ _).trans
    (congrArg (max (k0_pay20 v1 v34 v53 (ix2 r (0 : Fin 1)))) (rowmax_col (k0_pay26 v1 v77) _ _ _ _ r)))

theorem pay28_def : k0_pay28 v1 v34 v53 v77 = exp (subf (k0_pay20 v1 v34 v53) (k0_pay27 v1 v34 v53 v77)) := rfl

theorem pay28_at : k0_pay28 v1 v34 v53 v77 (ix2 r (0 : Fin 1))
    = Ideal.exp (k0_pay20 v1 v34 v53 (ix2 r (0 : Fin 1)) - k0_pay27 v1 v34 v53 v77 (ix2 r (0 : Fin 1))) :=
  (congrFun (pay28_def v53 v77 v1 v34) (ix2 r (0 : Fin 1))).trans ((exp_at _ _).trans
    (congrArg Ideal.exp (subf_apply _ _ _)))

theorem pay29_def : k0_pay29 v1 v34 v53 v77
    = subf (k0_pay26 v1 v77) (broadcastTo S2048x512 (k0_pay27 v1 v34 v53 v77) Gen.broadcasts_S2048x1_S2048x512) := rfl

theorem pay29_at : k0_pay29 v1 v34 v53 v77 (ix2 r j) = k0_pay26 v1 v77 (ix2 r j) - k0_pay27 v1 v34 v53 v77 (ix2 r (0 : Fin 1)) :=
  (congrFun (pay29_def v53 v77 v1 v34) (ix2 r j)).trans ((subf_apply _ _ _).trans
    (congrArg (k0_pay26 v1 v77 (ix2 r j) - ·) (spread_apply (k0_pay27 v1 v34 v53 v77) _ r j)))

/-- A product of two columns plus the row sums of an array, kept as a column, at `(r, 0)`: the shape every update of
    the first sum has. -/
theorem sum1_at (a b : FVec Ideal S2048x1 .f32) (X : FVec Ideal S2048x512 .f32) :
    addf (mulf a b)
        (shapeCast S2048x1 (multiReduction .add [1] S2048 X 0x00000000#32 Gen.reduces_S2048x512_S2048 (.inl rfl) rfl)
          Gen.shapeCasts_S2048_S2048x1) (ix2 r (0 : Fin 1))
      = a (ix2 r (0 : Fin 1)) * b (ix2 r (0 : Fin 1)) + ∑ j : Fin 512, X (ix2 r j) :=
  (addf_apply _ _ _).trans (congrArg₂ (· + ·) (mulf_apply _ _ _) (rowsum_col X _ _ _ _ r))

theorem pay1_def : k0_pay1 v58 v67 v76 v82 v84 v86
    = shapeCast S1x2048x1
        (addf v82 (divf
          (addf (addf (mulf v84 v76) (mulf (mulf v84 (subf v58 v82)) v67))
            (shapeCast S2048x1 (multiReduction .add [1] S2048 (mulf (exp v86) v86) 0x00000000#32 Gen.reduces_S2048x512_S2048 (.inl rfl) rfl)
              Gen.shapeCasts_S2048_S2048x1))
          (addf (mulf v84 v67)
            (shapeCast S2048x1 (multiReduction .add [1] S2048 (exp v86) 0x00000000#32 Gen.reduces_S2048x512_S2048 (.inl rfl) rfl)
              Gen.shapeCasts_S2048_S2048x1))))
        Gen.shapeCasts_S2048x1_S1x2048x1 := rfl

theorem pay1_at : k0_pay1 v58 v67 v76 v82 v84 v86 (ix3 (0 : Fin 1) r (0 : Fin 1))
    = v82 (ix2 r (0 : Fin 1))
      + Ideal.div
          ((v84 (ix2 r (0 : Fin 1)) * v76 (ix2 r (0 : Fin 1))
              + v84 (ix2 r (0 : Fin 1)) * (v58 (ix2 r (0 : Fin 1)) - v82 (ix2 r (0 : Fin 1))) * v67 (ix2 r (0 : Fin 1)))
            + ∑ j : Fin 512, Ideal.exp (v86 (ix2 r j)) * v86 (ix2 r j))
          (v84 (ix2 r (0 : Fin 1)) * v67 (ix2 r (0 : Fin 1)) + ∑ j : Fin 512, Ideal.exp (v86 (ix2 r j))) :=
  (congrFun (pay1_def v86 v58 v67 v76 v82 v84) (ix3 (0 : Fin 1) r (0 : Fin 1))).trans
    ((addUnit_col_apply _ _ r).trans ((addf_apply _ _ _).trans (congrArg (v82 (ix2 r (0 : Fin 1)) + ·)
      ((divf_apply _ _ _).trans (congrArg₂ Ideal.div
        (((sum2_at r v84 v76 (subf v58 v82) v67 (exp v86) v86).trans
            (congrArg (fun t => (v84 (ix2 r (0 : Fin 1)) * v76 (ix2 r (0 : Fin 1))
                  + v84 (ix2 r (0 : Fin 1)) * t * v67 (ix2 r (0 : Fin 1)))
                + ∑ j : Fin 512, exp v86 (ix2 r j) * v86 (ix2 r j)) (subf_apply v58 v82 (ix2 r (0 : Fin 1))))).trans
          (congrArg (fun t => (v84 (ix2 r (0 : Fin 1)) * v76 (ix2 r (0 : Fin 1))
                + v84 (ix2 r (0 : Fin 1)) * (v58 (ix2 r (0 : Fin 1)) - v82 (ix2 r (0 : Fin 1))) * v67 (ix2 r (0 : Fin 1))) + t)
            (Finset.sum_congr rfl fun j _ => congrArg (· * v86 (ix2 r j)) (exp_at v86 (ix2 r j)))))
        ((sum1_at r v84 v67 (exp v86)).trans
          (congrArg (v84 (ix2 r (0 : Fin 1)) * v67 (ix2 r (0 : Fin 1)) + ·)
            (Finset.sum_congr rfl fun j _ => exp_at v86 (ix2 r j)))))))))

end Cert.KernelIdeal.Row

end
-- ==== Proof.SoftmaxReal.lean ====
/-
  Sums of exponentials of a family of reals, shifted by a constant, and how they change with the shift.

  For a finite family `ℓ` and a shift `M` write `Z ℓ M = ∑ j, exp (ℓ j - M)` and
  `N ℓ M = ∑ j, exp (ℓ j - M) * (ℓ j - M)`.  Changing the shift from `M` to `M'` multiplies every exponential by
  `exp (M - M')`, so `Z ℓ M' = exp (M - M') * Z ℓ M` and
  `N ℓ M' = exp (M - M') * N ℓ M + exp (M - M') * (M - M') * Z ℓ M`: the two update rules of a softmax accumulated
  chunk by chunk under a running shift.  The softmax-weighted mean `∑ j, (exp (ℓ j - M) / Z ℓ M) * ℓ j` does not
  depend on the shift and equals `M + N ℓ M / Z ℓ M` for every `M`.
-/
import Idealize.ShloMosaic.PureOps.Ideal

noncomputable section

namespace Cert.Softmax

open Finset

variable {κ : Type*} [Fintype κ]

/-- `∑ j, exp (ℓ j - M)`. -/
def Zc (ℓ : κ → ℝ) (M : ℝ) : ℝ := ∑ j, Real.exp (ℓ j - M)

/-- `∑ j, exp (ℓ j - M) * (ℓ j - M)`. -/
def Nc (ℓ : κ → ℝ) (M : ℝ) : ℝ := ∑ j, Real.exp (ℓ j - M) * (ℓ j - M)

theorem exp_shift (x M M' : ℝ) : Real.exp (x - M') = Real.exp (M - M') * Real.exp (x - M) := by
  rw [← Real.exp_add]; congr 1; ring

theorem Zc_shift (ℓ : κ → ℝ) (M M' : ℝ) : Real.exp (M - M') * Zc ℓ M = Zc ℓ M' := by
  unfold Zc
  rw [Finset.mul_sum]
  exact Finset.sum_congr rfl fun j _ => (exp_shift _ _ _).symm

theorem Nc_shift (ℓ : κ → ℝ) (M M' : ℝ) :
    Real.exp (M - M') * Nc ℓ M + Real.exp (M - M') * (M - M') * Zc ℓ M = Nc ℓ M' := by
  unfold Nc Zc
  rw [Finset.mul_sum, Finset.mul_sum, ← Finset.sum_add_distrib]
  refine Finset.sum_congr rfl fun j _ => ?_
  rw [exp_shift (ℓ j) M M']; ring

variable {γ : Type*} [DecidableEq γ]

/-- `Z` summed over the chunks `c ∈ A` of a family cut into chunks. -/
def ZA (ℓ : γ → κ → ℝ) (A : Finset γ) (M : ℝ) : ℝ := ∑ c ∈ A, Zc (ℓ c) M

/-- `N` summed over the chunks `c ∈ A`. -/
def NA (ℓ : γ → κ → ℝ) (A : Finset γ) (M : ℝ) : ℝ := ∑ c ∈ A, Nc (ℓ c) M

theorem ZA_empty (ℓ : γ → κ → ℝ) (M : ℝ) : ZA ℓ ∅ M = 0 := Finset.sum_empty
theorem NA_empty (ℓ : γ → κ → ℝ) (M : ℝ) : NA ℓ ∅ M = 0 := Finset.sum_empty

theorem ZA_shift (ℓ : γ → κ → ℝ) (A : Finset γ) (M M' : ℝ) : Real.exp (M - M') * ZA ℓ A M = ZA ℓ A M' := by
  unfold ZA; rw [Finset.mul_sum]; exact Finset.sum_congr rfl fun c _ => Zc_shift _ _ _

theorem NA_shift (ℓ : γ → κ → ℝ) (A : Finset γ) (M M' : ℝ) :
    Real.exp (M - M') * NA ℓ A M + Real.exp (M - M') * (M - M') * ZA ℓ A M = NA ℓ A M' := by
  unfold NA ZA; rw [Finset.mul_sum, Finset.mul_sum, ← Finset.sum_add_distrib]
  exact Finset.sum_congr rfl fun c _ => Nc_shift _ _ _

/-- One more chunk under a new shift: the old `Z` rescaled plus the new chunk's. -/
theorem ZA_insert (ℓ : γ → κ → ℝ) (A : Finset γ) (c : γ) (hc : c ∉ A) (M M' : ℝ) :
    Real.exp (M - M') * ZA ℓ A M + Zc (ℓ c) M' = ZA ℓ (insert c A) M' := by
  rw [ZA_shift]; unfold ZA; rw [Finset.sum_insert hc, add_comm]

/-- One more chunk under a new shift: the old `N` rescaled and corrected by the old `Z`, plus the new chunk's. -/
theorem NA_insert (ℓ : γ → κ → ℝ) (A : Finset γ) (c : γ) (hc : c ∉ A) (M M' : ℝ) :
    (Real.exp (M - M') * NA ℓ A M + Real.exp (M - M') * (M - M') * ZA ℓ A M) + Nc (ℓ c) M' = NA ℓ (insert c A) M' := by
  rw [NA_shift]; unfold NA; rw [Finset.sum_insert hc, add_comm]

/-- The softmax-weighted mean of a nonempty finite family, its weights taken with shift `Mr`, is
    `M + N / Z` at any other shift `M`. -/
theorem mean_shift {σ : Type*} [Fintype σ] [Nonempty σ] (g : σ → ℝ) (Mr M : ℝ) :
    ∑ j, (Real.exp (g j - Mr) * (1 / ∑ j', Real.exp (g j' - Mr))) * g j
      = M + (∑ j, Real.exp (g j - M) * (g j - M)) * (1 / ∑ j, Real.exp (g j - M)) := by
  have hZ : 0 < ∑ j, Real.exp (g j - M) := Finset.sum_pos (fun j _ => Real.exp_pos _) Finset.univ_nonempty
  have he : 0 < Real.exp (M - Mr) := Real.exp_pos _
  have hZr : ∑ j, Real.exp (g j - Mr) = Real.exp (M - Mr) * ∑ j, Real.exp (g j - M) := by
    rw [Finset.mul_sum]; exact Finset.sum_congr rfl fun j _ => exp_shift _ _ _
  have hN : ∑ j, Real.exp (g j - M) * (g j - M)
      = ∑ j, Real.exp (g j - M) * g j - M * ∑ j, Real.exp (g j - M) := by
    have e : ∀ j, Real.exp (g j - M) * (g j - M) = Real.exp (g j - M) * g j - M * Real.exp (g j - M) := fun j => by ring
    simp only [e, Finset.sum_sub_distrib, Finset.mul_sum]
  have hW : ∑ j, Real.exp (g j - Mr) * g j = Real.exp (M - Mr) * ∑ j, Real.exp (g j - M) * g j := by
    rw [Finset.mul_sum]
    exact Finset.sum_congr rfl fun j _ => by rw [exp_shift (g j) M Mr]; ring
  have hL : ∑ j, (Real.exp (g j - Mr) * (1 / ∑ j', Real.exp (g j' - Mr))) * g j
      = (1 / ∑ j', Real.exp (g j' - Mr)) * ∑ j, Real.exp (g j - Mr) * g j := by
    rw [Finset.mul_sum]
    exact Finset.sum_congr rfl fun j _ => by ring
  rw [hL, hW, hZr, hN]
  field_simp
  ring

/-- An inner product with a weighted sum of rows is the weighted sum of the inner products. -/
theorem attended_eq {δ σ : Type*} [Fintype δ] [Fintype σ] (q : δ → ℝ) (s : σ → δ → ℝ) (w : σ → ℝ) :
    ∑ d, q d * ∑ j, w j * s j d = ∑ j, w j * ∑ d, q d * s j d := by
  simp only [Finset.mul_sum]
  rw [Finset.sum_comm]
  exact Finset.sum_congr rfl fun j _ => Finset.sum_congr rfl fun d _ => by ring

/-- Position `j` of chunk `c` when 2048 positions are cut into 4 chunks of 512. -/
def chunkIdx (c : Fin 4) (j : Fin 512) : Fin 2048 := ⟨512 * c.val + j.val, by omega⟩

/-- A sum over 2048 positions, chunk by chunk. -/
theorem sum_chunks {A : Type*} [AddCommMonoid A] (g : Fin 2048 → A) :
    ∑ p : Fin 2048, g p = ∑ c : Fin 4, ∑ j : Fin 512, g (chunkIdx c j) := by
  rw [← Fintype.sum_prod_type' (f := fun c j => g (chunkIdx c j))]
  refine (Fintype.sum_equiv (finProdFinEquiv (m := 4) (n := 512)) _ _ fun x => ?_).symm
  refine congrArg g (Fin.ext ?_)
  show 512 * x.1.val + x.2.val = x.2.val + 512 * x.1.val
  omega

/-- The four chunks, put in one after the other. -/
abbrev A4 : Finset (Fin 4) := insert 3 (insert 2 (insert 1 (insert 0 ∅)))

theorem A4_eq_univ : A4 = Finset.univ := by decide

/-- The logits of query row `q` against the 2048 support rows `s`, cut into 4 chunks of 512. -/
def chunkLogits (q : Fin 512 → ℝ) (s : Fin 2048 → Fin 512 → ℝ) : Fin 4 → Fin 512 → ℝ :=
  fun c j => ∑ k : Fin 512, q k * s (chunkIdx c j) k

/-- A sum of exponentials over at least one chunk of at least one logit is positive. -/
theorem ZA_pos [Nonempty κ] (ℓ : γ → κ → ℝ) (A : Finset γ) (hA : A.Nonempty) (M : ℝ) : 0 < ZA ℓ A M :=
  Finset.sum_pos (fun _ _ => Finset.sum_pos (fun _ _ => Real.exp_pos _) Finset.univ_nonempty) hA

end Cert.Softmax

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.StepEReal.lean ====
/-
  One update of the running softmax state, computed on extended reals that are real.

  The state after some chunks of a row's logits is a shift `M` and the two sums `Z` and `N` of
  `exp (ℓ - M)` and `exp (ℓ - M) * (ℓ - M)` over the logits seen.  A new chunk `x` moves the shift to `M'` and the
  sums to `exp (M - M') * Z + ∑ exp (x - M')` and `exp (M - M') * N + exp (M - M') * (M - M') * Z + ∑ exp (x - M') * (x - M')`.
  When every quantity is a real number the extended-real operations are the real ones, so each new value is again the
  coercion of a real; a maximum of finitely many reals (at least one) taken from `-∞` is one of them.
-/
import proofs.«168202_j14027363189464_2_alg».proof.Proof.SoftmaxReal
import proofs.«168202_j14027363189464_2_alg».proof.Proof.LibERealSum

noncomputable section

namespace Cert.StepE

open Idealize.ShloMosaic Cert.Softmax

/-- A fold of `max` from `⊥` over a nonempty finite set is attained. -/
theorem fold_max_mem {ι : Type*} [DecidableEq ι] (s : Finset ι) (hs : s.Nonempty) (f : ι → EReal) :
    ∃ i ∈ s, s.fold max ⊥ f = f i := by
  induction s using Finset.induction_on with
  | empty => exact absurd hs Finset.not_nonempty_empty
  | insert a s ha ih =>
    rw [Finset.fold_insert ha]
    rcases s.eq_empty_or_nonempty with rfl | hne
    · exact ⟨a, Finset.mem_insert_self _ _, by rw [Finset.fold_empty]; exact max_bot_right _⟩
    · obtain ⟨i, hi, e⟩ := ih hne
      rw [e]
      rcases max_choice (f a) (f i) with h | h
      · exact ⟨a, Finset.mem_insert_self _ _, h⟩
      · exact ⟨i, Finset.mem_insert_of_mem hi, h⟩

/-- The maximum from `-∞` of a nonempty finite family of reals is a real. -/
theorem fold_max_real {κ : Type*} [Fintype κ] [Nonempty κ] (g : κ → ℝ) :
    ∃ C : ℝ, (Finset.univ : Finset κ).fold max ⊥ (fun j => ((g j : ℝ) : EReal)) = ((C : ℝ) : EReal) := by
  classical
  obtain ⟨i, -, e⟩ := fold_max_mem Finset.univ Finset.univ_nonempty (fun j => ((g j : ℝ) : EReal))
  exact ⟨g i, e⟩

/-- The maximum of two reals, as extended reals. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The rescaling factor between two real shifts. -/
theorem scale_coe (M M' : ℝ) : Ideal.exp ((M : EReal) - (M' : EReal)) = ((Real.exp (M - M') : ℝ) : EReal) := by
  rw [← EReal.coe_sub, Ideal.exp_coe]

/-- A shifted real logit. -/
theorem shifted_coe (x M' : ℝ) : (x : EReal) - (M' : EReal) = ((x - M' : ℝ) : EReal) := (EReal.coe_sub x M').symm

/-- Its exponential. -/
theorem weight_coe (x M' : ℝ) : Ideal.exp ((x - M' : ℝ) : EReal) = ((Real.exp (x - M') : ℝ) : EReal) := Ideal.exp_coe _

variable {κ : Type*} [Fintype κ]

/-- The updated sum of weights. -/
theorem z_step (a Z M' : ℝ) (x : κ → ℝ) :
    (a : EReal) * (Z : EReal) + ∑ j, ((Real.exp (x j - M') : ℝ) : EReal) = ((a * Z + Zc x M' : ℝ) : EReal) := by
  unfold Zc
  rw [EReal.coe_add, EReal.coe_mul, Cert.LibERealSum.coe_sum]

/-- The updated sum of weighted shifted logits. -/
theorem n_step (a d Z N M' : ℝ) (x : κ → ℝ) :
    ((a : EReal) * (N : EReal) + (a : EReal) * (d : EReal) * (Z : EReal))
        + ∑ j, ((Real.exp (x j - M') : ℝ) : EReal) * ((x j - M' : ℝ) : EReal)
      = (((a * N + a * d * Z) + Nc x M' : ℝ) : EReal) := by
  unfold Nc
  rw [EReal.coe_add, EReal.coe_add, EReal.coe_mul, EReal.coe_mul, EReal.coe_mul, Cert.LibERealSum.coe_sum]
  exact congrArg (_ + ·) (Finset.sum_congr rfl fun j _ => (EReal.coe_mul _ _).symm)

/-- The score from the final state: `M + N / Z` with `Z ≠ 0`. -/
theorem score_coe (M N Z : ℝ) (hZ : Z ≠ 0) :
    (M : EReal) + Ideal.div (N : EReal) (Z : EReal) = ((M + N * (1 / Z) : ℝ) : EReal) := by
  rw [Ideal.div_coe hZ, ← EReal.coe_mul, ← EReal.coe_add]

end Cert.StepE

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.KernelRow.lean ====
/-
  The score the kernel body writes for one query row, when the row and the support rows are real.

  The body's state after each chunk of 512 logits is a real shift `M` (the running maximum) and the two sums `Z`, `N`
  of `exp (ℓ - M)` and `exp (ℓ - M) * (ℓ - M)` over the logits seen so far; the first chunk starts from a finite shift
  and two empty sums.  Each update is the one of a chunk-by-chunk softmax (the rules of the sums under a change of shift),
  every value stays real, and the score written is `M + N / Z` over all four chunks.
-/
import proofs.«168202_j14027363189464_2_alg».proof.Proof.KernelPay
import proofs.«168202_j14027363189464_2_alg».proof.Proof.StepEReal
import proofs.«168202_j14027363189464_2_alg».proof.Proof.LibIdx
import proofs.«168202_j14027363189464_2_alg».proof.Proof.Gen.KernelIdeal.Frame
import Idealize.ShloMosaic.Lib.Pipeline.Value

noncomputable section

namespace Cert.KernelIdeal.Row

open Idealize.ShloMosaic Idealize.ShloMosaic.ValueIdx Cert.KernelIdeal Cert.KernelIdeal.Gen Cert.Softmax Cert.StepE

/-- The number the running maximum starts from is finite. -/
theorem negBig_real : ∃ M0 : ℝ, negBig = ((M0 : ℝ) : EReal) := by
  have h1 : negBig ≠ ⊥ := by
    simp [negBig, Ideal.ofBits, Ideal.ieee]
    first
    | exact_mod_cast EReal.coe_ne_top _
    | (norm_cast; exact EReal.coe_ne_top _)
    | (rw [← EReal.coe_pow, ← EReal.coe_mul]; exact EReal.coe_ne_top _)
  have h2 : negBig ≠ ⊤ := by
    simp [negBig, Ideal.ofBits, Ideal.ieee]
    first
    | exact_mod_cast EReal.coe_ne_bot _
    | (norm_cast; exact EReal.coe_ne_bot _)
    | (rw [← EReal.coe_pow, ← EReal.coe_mul]; exact EReal.coe_ne_bot _)
  exact ⟨negBig.toReal, (EReal.coe_toReal h2 h1).symm⟩

theorem zeroF_real : zeroF = ((0 : ℝ) : EReal) := Ideal.ofBits_zero_f32.trans EReal.coe_zero.symm

/-- An inner product of two real rows is real. -/
theorem logit_coe (qr w : Fin 512 → ℝ) (a b : Fin 512 → EReal) (ha : ∀ k, a k = ((qr k : ℝ) : EReal))
    (hb : ∀ k, b k = ((w k : ℝ) : EReal)) : ∑ k, a k * b k = ((∑ k, qr k * w k : ℝ) : EReal) := by
  rw [Cert.LibERealSum.coe_sum]
  exact Finset.sum_congr rfl fun k _ => by rw [ha k, hb k, EReal.coe_mul]

theorem notMem1 : (1 : Fin 4) ∉ (insert 0 ∅ : Finset (Fin 4)) := by decide
theorem notMem2 : (2 : Fin 4) ∉ (insert 1 (insert 0 ∅) : Finset (Fin 4)) := by decide
theorem notMem3 : (3 : Fin 4) ∉ (insert 2 (insert 1 (insert 0 ∅)) : Finset (Fin 4)) := by decide

variable (v0 : Vec Ideal S1x2048x512 .f32) (v5 v29 v53 v77 : Vec Ideal S1x512x512 .f32)

/-- The score of row `r` from a real query row `qr` and four chunks `sc c` of real support rows, with
    `ℓ c j` the logit of the row against row `j` of chunk `c`. -/
theorem row_score (qr : Fin 512 → ℝ) (sc : Fin 4 → Fin 512 → Fin 512 → ℝ) (ℓ : Fin 4 → Fin 512 → ℝ)
    (hℓ : ∀ c j, ℓ c j = ∑ k, qr k * sc c j k) (r : Fin 2048)
    (hq : ∀ k, v0 (ix3 (0 : Fin 1) r k) = ((qr k : ℝ) : EReal))
    (h5 : ∀ j k, v5 (ix3 (0 : Fin 1) j k) = ((sc 0 j k : ℝ) : EReal))
    (h29 : ∀ j k, v29 (ix3 (0 : Fin 1) j k) = ((sc 1 j k : ℝ) : EReal))
    (h53 : ∀ j k, v53 (ix3 (0 : Fin 1) j k) = ((sc 2 j k : ℝ) : EReal))
    (h77 : ∀ j k, v77 (ix3 (0 : Fin 1) j k) = ((sc 3 j k : ℝ) : EReal)) :
    ∃ M : ℝ, k0_pay1 (k0_pay20 (k0_pay2 v0) (k0_pay13 v0 v5 v29) v53) (k0_pay24 (k0_pay2 v0) (k0_pay13 v0 v5 v29) (k0_pay16 v0 v5 v29) (k0_pay17 v0 v5 v29) v53) (k0_pay25 (k0_pay2 v0) (k0_pay6 v0 v5) (k0_pay10 v0 v5) (k0_pay11 v0 v5) (k0_pay13 v0 v5 v29) (k0_pay14 v0 v5 v29) (k0_pay15 v0 v5 v29) (k0_pay16 v0 v5 v29) (k0_pay17 v0 v5 v29) v53) (k0_pay27 (k0_pay2 v0) (k0_pay13 v0 v5 v29) v53 v77) (k0_pay28 (k0_pay2 v0) (k0_pay13 v0 v5 v29) v53 v77) (k0_pay29 (k0_pay2 v0) (k0_pay13 v0 v5 v29) v53 v77) (ix3 (0 : Fin 1) r (0 : Fin 1))
      = ((M + NA ℓ A4 M * (1 / ZA ℓ A4 M) : ℝ) : EReal) := by
  classical
  obtain ⟨M0, hM0⟩ := negBig_real
  have hzero := zeroF_real
  -- the four chunks of logits are real
  have hq1 : ∀ k, k0_pay2 v0 (ix2 r k) = ((qr k : ℝ) : EReal) := fun k => (pay2_apply v0 r k).trans (hq k)
  have hL1 : ∀ j, k0_pay5 v0 v5 (ix2 r j) = ((ℓ 0 j : ℝ) : EReal) := fun j =>
    (pay5_at v0 v5 r j).trans ((logit_coe qr (sc 0 j) (fun k => v0 (ix3 (0 : Fin 1) r k)) (fun k => v5 (ix3 (0 : Fin 1) j k)) hq (h5 j)).trans
      (congrArg _ (hℓ 0 j).symm))
  have hL2 : ∀ j, k0_pay12 v0 v29 (ix2 r j) = ((ℓ 1 j : ℝ) : EReal) := fun j =>
    (pay12_at v0 v29 r j).trans ((logit_coe qr (sc 1 j) (fun k => v0 (ix3 (0 : Fin 1) r k)) (fun k => v29 (ix3 (0 : Fin 1) j k)) hq (h29 j)).trans
      (congrArg _ (hℓ 1 j).symm))
  have hL3 : ∀ j, k0_pay19 (k0_pay2 v0) v53 (ix2 r j) = ((ℓ 2 j : ℝ) : EReal) := fun j =>
    (pay19_at v53 (k0_pay2 v0) r j).trans ((logit_coe qr (sc 2 j) (fun k => k0_pay2 v0 (ix2 r k)) (fun k => v53 (ix3 (0 : Fin 1) j k)) hq1 (h53 j)).trans
      (congrArg _ (hℓ 2 j).symm))
  have hL4 : ∀ j, k0_pay26 (k0_pay2 v0) v77 (ix2 r j) = ((ℓ 3 j : ℝ) : EReal) := fun j =>
    (pay26_at v77 (k0_pay2 v0) r j).trans ((logit_coe qr (sc 3 j) (fun k => k0_pay2 v0 (ix2 r k)) (fun k => v77 (ix3 (0 : Fin 1) j k)) hq1 (h77 j)).trans
      (congrArg _ (hℓ 3 j).symm))
  -- the chunks' row maxima are real
  obtain ⟨C1, hC1⟩ := fold_max_real (ℓ 0)
  obtain ⟨C2, hC2⟩ := fold_max_real (ℓ 1)
  obtain ⟨C3, hC3⟩ := fold_max_real (ℓ 2)
  obtain ⟨C4, hC4⟩ := fold_max_real (ℓ 3)
  obtain ⟨M1, hM1⟩ : ∃ M1 : ℝ, max M0 C1 = M1 := ⟨_, rfl⟩
  obtain ⟨M2, hM2⟩ : ∃ M2 : ℝ, max M1 C2 = M2 := ⟨_, rfl⟩
  obtain ⟨M3, hM3⟩ : ∃ M3 : ℝ, max M2 C3 = M3 := ⟨_, rfl⟩
  obtain ⟨M4, hM4⟩ : ∃ M4 : ℝ, max M3 C4 = M4 := ⟨_, rfl⟩
  -- chunk 1
  have hm1 : k0_pay6 v0 v5 (ix2 r (0 : Fin 1)) = ((M1 : ℝ) : EReal) := by
    rw [pay6_at, hM0, show (fun j => k0_pay5 v0 v5 (ix2 r j)) = fun j => ((ℓ 0 j : ℝ) : EReal) from funext hL1, hC1, max_coe, hM1]
  have ha1 : k0_pay7 v0 v5 (ix2 r (0 : Fin 1)) = ((Real.exp (M0 - M1) : ℝ) : EReal) := by
    rw [pay7_at, hM0, hm1, scale_coe]
  have ht1 : ∀ j, k0_pay8 v0 v5 (ix2 r j) = ((ℓ 0 j - M1 : ℝ) : EReal) := fun j => by
    rw [pay8_at, hL1, hm1, shifted_coe]
  have hp1 : ∀ j, k0_pay9 v0 v5 (ix2 r j) = ((Real.exp (ℓ 0 j - M1) : ℝ) : EReal) := fun j => by
    rw [pay9_at, ht1, weight_coe]
  have hz1 : k0_pay10 v0 v5 (ix2 r (0 : Fin 1)) = ((ZA ℓ (insert 0 ∅) M1 : ℝ) : EReal) := by
    rw [pay10_at, ha1, hzero,
      show (fun j => k0_pay9 v0 v5 (ix2 r j)) = fun j => ((Real.exp (ℓ 0 j - M1) : ℝ) : EReal) from funext hp1,
      z_step, ← ZA_insert ℓ ∅ 0 (Finset.notMem_empty 0) M0 M1, ZA_empty]
  have hn1 : k0_pay11 v0 v5 (ix2 r (0 : Fin 1)) = ((NA ℓ (insert 0 ∅) M1 : ℝ) : EReal) := by
    rw [pay11_at, ha1, hzero, hM0, hm1, shifted_coe,
      show (fun j => k0_pay9 v0 v5 (ix2 r j) * k0_pay8 v0 v5 (ix2 r j))
          = fun j => ((Real.exp (ℓ 0 j - M1) : ℝ) : EReal) * ((ℓ 0 j - M1 : ℝ) : EReal) from funext fun j => by rw [hp1, ht1],
      n_step, ← NA_insert ℓ ∅ 0 (Finset.notMem_empty 0) M0 M1, NA_empty, ZA_empty]
  -- chunk 2
  have hm2 : k0_pay13 v0 v5 v29 (ix2 r (0 : Fin 1)) = ((M2 : ℝ) : EReal) := by
    rw [pay13_at, hm1, show (fun j => k0_pay12 v0 v29 (ix2 r j)) = fun j => ((ℓ 1 j : ℝ) : EReal) from funext hL2, hC2, max_coe, hM2]
  have ha2 : k0_pay14 v0 v5 v29 (ix2 r (0 : Fin 1)) = ((Real.exp (M1 - M2) : ℝ) : EReal) := by
    rw [pay14_at, hm1, hm2, scale_coe]
  have ht2 : ∀ j, k0_pay15 v0 v5 v29 (ix2 r j) = ((ℓ 1 j - M2 : ℝ) : EReal) := fun j => by
    rw [pay15_at, hL2, hm2, shifted_coe]
  have hp2 : ∀ j, k0_pay16 v0 v5 v29 (ix2 r j) = ((Real.exp (ℓ 1 j - M2) : ℝ) : EReal) := fun j => by
    rw [pay16_at, ht2, weight_coe]
  have hz2 : k0_pay18 (k0_pay16 v0 v5 v29) (k0_pay17 v0 v5 v29) (ix2 r (0 : Fin 1)) = ((ZA ℓ (insert 1 (insert 0 ∅)) M2 : ℝ) : EReal) := by
    rw [pay18_at, pay17_at, ha2, hz1,
      show (fun j => k0_pay16 v0 v5 v29 (ix2 r j)) = fun j => ((Real.exp (ℓ 1 j - M2) : ℝ) : EReal) from funext hp2,
      z_step, ZA_insert ℓ (insert 0 ∅) 1 notMem1 M1 M2]
  have hn2 : n2 (k0_pay15 v0 v5 v29) (k0_pay16 v0 v5 v29) (k0_pay6 v0 v5) (k0_pay10 v0 v5) (k0_pay11 v0 v5) (k0_pay13 v0 v5 v29) (k0_pay14 v0 v5 v29) r = ((NA ℓ (insert 1 (insert 0 ∅)) M2 : ℝ) : EReal) := by
    unfold n2
    rw [ha2, hn1, hm1, hm2, shifted_coe, hz1,
      show (fun j => k0_pay16 v0 v5 v29 (ix2 r j) * k0_pay15 v0 v5 v29 (ix2 r j))
          = fun j => ((Real.exp (ℓ 1 j - M2) : ℝ) : EReal) * ((ℓ 1 j - M2 : ℝ) : EReal) from funext fun j => by rw [hp2, ht2],
      n_step, NA_insert ℓ (insert 0 ∅) 1 notMem1 M1 M2]
  -- chunk 3
  have hm3 : k0_pay20 (k0_pay2 v0) (k0_pay13 v0 v5 v29) v53 (ix2 r (0 : Fin 1)) = ((M3 : ℝ) : EReal) := by
    rw [pay20_at, hm2, show (fun j => k0_pay19 (k0_pay2 v0) v53 (ix2 r j)) = fun j => ((ℓ 2 j : ℝ) : EReal) from funext hL3, hC3, max_coe, hM3]
  have ha3 : k0_pay21 (k0_pay2 v0) (k0_pay13 v0 v5 v29) v53 (ix2 r (0 : Fin 1)) = ((Real.exp (M2 - M3) : ℝ) : EReal) := by
    rw [pay21_at, hm2, hm3, scale_coe]
  have ht3 : ∀ j, k0_pay22 (k0_pay2 v0) (k0_pay13 v0 v5 v29) v53 (ix2 r j) = ((ℓ 2 j - M3 : ℝ) : EReal) := fun j => by
    rw [pay22_at, hL3, hm3, shifted_coe]
  have hp3 : ∀ j, k0_pay23 (k0_pay2 v0) (k0_pay13 v0 v5 v29) v53 (ix2 r j) = ((Real.exp (ℓ 2 j - M3) : ℝ) : EReal) := fun j => by
    rw [pay23_at, ht3, weight_coe]
  have hz3 : k0_pay24 (k0_pay2 v0) (k0_pay13 v0 v5 v29) (k0_pay16 v0 v5 v29) (k0_pay17 v0 v5 v29) v53 (ix2 r (0 : Fin 1)) = ((ZA ℓ (insert 2 (insert 1 (insert 0 ∅))) M3 : ℝ) : EReal) := by
    rw [pay24_at, ha3, hz2,
      show (fun j => k0_pay23 (k0_pay2 v0) (k0_pay13 v0 v5 v29) v53 (ix2 r j)) = fun j => ((Real.exp (ℓ 2 j - M3) : ℝ) : EReal) from funext hp3,
      z_step, ZA_insert ℓ (insert 1 (insert 0 ∅)) 2 notMem2 M2 M3]
  have hn3 : k0_pay25 (k0_pay2 v0) (k0_pay6 v0 v5) (k0_pay10 v0 v5) (k0_pay11 v0 v5) (k0_pay13 v0 v5 v29) (k0_pay14 v0 v5 v29) (k0_pay15 v0 v5 v29) (k0_pay16 v0 v5 v29) (k0_pay17 v0 v5 v29) v53 (ix2 r (0 : Fin 1)) = ((NA ℓ (insert 2 (insert 1 (insert 0 ∅))) M3 : ℝ) : EReal) := by
    rw [pay25_at, ha3, hn2, hm2, hm3, shifted_coe, hz2,
      show (fun j => k0_pay23 (k0_pay2 v0) (k0_pay13 v0 v5 v29) v53 (ix2 r j) * k0_pay22 (k0_pay2 v0) (k0_pay13 v0 v5 v29) v53 (ix2 r j))
          = fun j => ((Real.exp (ℓ 2 j - M3) : ℝ) : EReal) * ((ℓ 2 j - M3 : ℝ) : EReal) from funext fun j => by rw [hp3, ht3],
      n_step, NA_insert ℓ (insert 1 (insert 0 ∅)) 2 notMem2 M2 M3]
  -- chunk 4 and the score
  have hm4 : k0_pay27 (k0_pay2 v0) (k0_pay13 v0 v5 v29) v53 v77 (ix2 r (0 : Fin 1)) = ((M4 : ℝ) : EReal) := by
    rw [pay27_at, hm3, show (fun j => k0_pay26 (k0_pay2 v0) v77 (ix2 r j)) = fun j => ((ℓ 3 j : ℝ) : EReal) from funext hL4, hC4, max_coe, hM4]
  have ha4 : k0_pay28 (k0_pay2 v0) (k0_pay13 v0 v5 v29) v53 v77 (ix2 r (0 : Fin 1)) = ((Real.exp (M3 - M4) : ℝ) : EReal) := by
    rw [pay28_at, hm3, hm4, scale_coe]
  have ht4 : ∀ j, k0_pay29 (k0_pay2 v0) (k0_pay13 v0 v5 v29) v53 v77 (ix2 r j) = ((ℓ 3 j - M4 : ℝ) : EReal) := fun j => by
    rw [pay29_at, hL4, hm4, shifted_coe]
  have hZ : ZA ℓ A4 M4 ≠ 0 := (ZA_pos ℓ A4 ⟨3, by decide⟩ M4).ne'
  refine ⟨M4, ?_⟩
  rw [pay1_at, hm4, ha4, hn3, hm3, shifted_coe, hz3,
    show (fun j => Ideal.exp (k0_pay29 (k0_pay2 v0) (k0_pay13 v0 v5 v29) v53 v77 (ix2 r j)) * k0_pay29 (k0_pay2 v0) (k0_pay13 v0 v5 v29) v53 v77 (ix2 r j))
        = fun j => ((Real.exp (ℓ 3 j - M4) : ℝ) : EReal) * ((ℓ 3 j - M4 : ℝ) : EReal) from funext fun j => by rw [ht4, weight_coe],
    show (fun j => Ideal.exp (k0_pay29 (k0_pay2 v0) (k0_pay13 v0 v5 v29) v53 v77 (ix2 r j)))
        = fun j => ((Real.exp (ℓ 3 j - M4) : ℝ) : EReal) from funext fun j => by rw [ht4, weight_coe],
    n_step, z_step, NA_insert ℓ (insert 2 (insert 1 (insert 0 ∅))) 3 notMem3 M3 M4,
    ZA_insert ℓ (insert 2 (insert 1 (insert 0 ∅))) 3 notMem3 M3 M4]
  exact score_coe M4 _ _ hZ

/-- Rows `o .. o + 511` of the support block, loaded as a chunk: row `j` of the chunk is row `o + j` of the block. -/
theorem ld_rows (x1 : Vec Ideal S1x2048x512 .f32) (o : ℕ)
    (inb : ∀ a, (![0, o, 0] : Fin 3 → ℕ) a + S1x512x512.size a ≤ S1x2048x512.size a)
    (j k : Fin 512) (p : Fin 2048) (hp : p.val = o + j.val) :
    View.ld x1 (Rect.unit (s := S1x2048x512) ![0, o, 0] S1x512x512.size inb) (ix3 (0 : Fin 1) j k)
      = x1 (ix3 (0 : Fin 1) p k) := by
  show x1 ((Rect.unit (s := S1x2048x512) ![0, o, 0] S1x512x512.size inb).emb (ix3 (0 : Fin 1) j k)) = _
  refine congrArg x1 (Cert.Proof.LibIdx.ix3_ext _ (0 : Fin 1) p k ?_ ?_ ?_)
  · show 0 + 1 * 0 = 0
    rfl
  · show o + 1 * j.val = p.val
    omega
  · show 0 + 1 * k.val = k.val
    omega

/-- What the body leaves at row `r` of its output block, from a real query block `q` and real support block `s`:
    `M + N / Z` over the four chunks of the row's logits, for some real `M`. -/
theorem out_row (x0 x1 : Vec Ideal S1x2048x512 .f32) (q s : Fin 2048 → Fin 512 → ℝ)
    (h0 : ∀ r k, x0 (ix3 (0 : Fin 1) r k) = ((q r k : ℝ) : EReal))
    (h1 : ∀ j k, x1 (ix3 (0 : Fin 1) j k) = ((s j k : ℝ) : EReal)) (r : Fin 2048) :
    ∃ M : ℝ, out0_2 x0 x1 (ix3 (0 : Fin 1) r (0 : Fin 1))
      = ((M + NA (chunkLogits (q r) s) A4 M * (1 / ZA (chunkLogits (q r) s) A4 M) : ℝ) : EReal) := by
  have hz : (![0, 0, 0] : Fin 3 → ℕ) = fun _ => 0 := by
    funext a; fin_cases a <;> rfl
  have hq : ∀ k, View.ld x0 r0_0 (ix3 (0 : Fin 1) r k) = ((q r k : ℝ) : EReal) := fun k => by
    rw [View.ld_unit_zero hz]; exact h0 r k
  have h5 : ∀ j k, View.ld x1 r0_1 (ix3 (0 : Fin 1) j k) = ((s (chunkIdx 0 j) k : ℝ) : EReal) := fun j k =>
    (ld_rows x1 0 _ j k (chunkIdx 0 j) (by show 512 * 0 + j.val = 0 + j.val; omega)).trans (h1 _ _)
  have h29 : ∀ j k, View.ld x1 r0_2 (ix3 (0 : Fin 1) j k) = ((s (chunkIdx 1 j) k : ℝ) : EReal) := fun j k =>
    (ld_rows x1 512 _ j k (chunkIdx 1 j) (by show 512 * 1 + j.val = 512 + j.val; omega)).trans (h1 _ _)
  have h53 : ∀ j k, View.ld x1 r0_3 (ix3 (0 : Fin 1) j k) = ((s (chunkIdx 2 j) k : ℝ) : EReal) := fun j k =>
    (ld_rows x1 1024 _ j k (chunkIdx 2 j) (by show 512 * 2 + j.val = 1024 + j.val; omega)).trans (h1 _ _)
  have h77 : ∀ j k, View.ld x1 r0_4 (ix3 (0 : Fin 1) j k) = ((s (chunkIdx 3 j) k : ℝ) : EReal) := fun j k =>
    (ld_rows x1 1536 _ j k (chunkIdx 3 j) (by show 512 * 3 + j.val = 1536 + j.val; omega)).trans (h1 _ _)
  unfold out0_2
  rw [View.canon_unit_zero hz]
  exact row_score (View.ld x0 r0_0) (View.ld x1 r0_1) (View.ld x1 r0_2) (View.ld x1 r0_3) (View.ld x1 r0_4)
    (q r) (fun c j k => s (chunkIdx c j) k) (chunkLogits (q r) s) (fun _ _ => rfl) r hq h5 h29 h53 h77

end Cert.KernelIdeal.Row

end
-- ==== Proof.RefRow.lean ====
/-
  The reference's result at one entry, for argument arrays of real numbers.

  At entry (b, r) the reference computes, over the extended reals,
    0 + ∑ d, Q(b,r,d) * ∑ j, (exp (ℓ j - M) / (0 + ∑ j', exp (ℓ j' - M))) * S(b,j,d),
  with the logits ℓ j = ∑ d, Q(b,r,d) * S(b,j,d) and M the maximum of -∞ and of the row's logits.  When every entry
  of Q and S is a real number every logit is real; the maximum of a nonempty row of reals is one of them, hence real;
  the exponential of a real is real; the denominator is a sum of positive reals, hence a nonzero real; so every
  operation stays among the reals, where the embedding into the extended reals commutes with sums, products,
  differences and the quotient by a nonzero real.  The whole entry is therefore the embedding of the real row score
  taken with shift M.
-/
import proofs.«168202_j14027363189464_2_alg».proof.Proof.Gen.ReferenceIdeal.Read
import proofs.«168202_j14027363189464_2_alg».proof.Proof.Spec
import proofs.«168202_j14027363189464_2_alg».proof.Proof.LibERealSum
import proofs.«168202_j14027363189464_2_alg».proof.Proof.LibPlain
import Idealize.ShloMosaic.PureOps.Reduce
import Idealize.ShloMosaic.PureOps.Ideal.Laws
import Idealize.ShloMosaic.Lib.ValueIdx

noncomputable section

namespace Cert.RefRow

open Cert.ReferenceIdeal Cert.ReferenceIdeal.Gen Cert.ReferenceIdeal.Read Idealize.ShloMosaic Idealize.ShloMosaic.ValueIdx Cert.Spec

/-- An argument array of the reference, at the extended reals. -/
abbrev Arg : Type := (⟨S16x2048x512, .f32⟩ : BufTy).Contents (Elt Ideal)

/-- Row `r` of batch `b` of the query array. -/
abbrev qRow (q : SArg.Idx → ℝ) (b : Fin 16) (r : Fin 2048) : Fin 512 → ℝ := fun d => q (ix3 b r d)
/-- Batch `b` of the support array, as its 2048 rows. -/
abbrev sRows (s : SArg.Idx → ℝ) (b : Fin 16) : Fin 2048 → Fin 512 → ℝ := fun j d => s (ix3 b j d)

/-! ### The logits -/

/-- With real arguments the logit of query row `(b, r)` against support row `j` is the real inner product. -/
theorem logit_apply (Q S : Arg) (q s : SArg.Idx → ℝ) (hQ : ∀ i, Q i = ((q i : ℝ) : EReal))
    (hS : ∀ i, S i = ((s i : ℝ) : EReal)) (b : Fin 16) (r j : Fin 2048) :
    val_main_v0 (F := Ideal) Q S (ix3 b r j) = ((logit (qRow q b r) (sRows s b) j : ℝ) : EReal) := by
  rw [val_main_v0_apply]
  unfold logit
  rw [Cert.LibERealSum.coe_sum]
  refine Finset.sum_congr rfl fun k _ => ?_
  have el : lidx_main_v0 (ix3 b r j) k = ix3 b r k := funext fun a => Fin.ext (by
    match a with
    | ⟨0, _⟩ => rfl
    | ⟨1, _⟩ => rfl
    | ⟨2, _⟩ => rfl)
  have er : ridx_main_v0 (ix3 b r j) k = ix3 b j k := funext fun a => Fin.ext (by
    match a with
    | ⟨0, _⟩ => rfl
    | ⟨1, _⟩ => rfl
    | ⟨2, _⟩ => rfl)
  rw [el, er, hQ, hS, EReal.coe_mul]

/-! ### The row maximum -/

/-- The maximum of `⊥` and of a nonempty finite family of real numbers is a real number: it is one of them. -/
theorem fold_max_real {ι : Type} (t : Finset ι) (ht : t.Nonempty) (g : ι → EReal)
    (hg : ∀ k, ∃ x : ℝ, g k = (x : EReal)) : ∃ M : ℝ, t.fold max ⊥ g = (M : EReal) := by
  obtain ⟨k, _, hk⟩ := Finset.exists_mem_eq_sup t ht g
  obtain ⟨x, hx⟩ := hg k
  exact ⟨x, (show t.fold max ⊥ g = t.sup g from rfl).trans (hk.trans hx)⟩

/-- The index over `(b, r)` whose coordinate on the last axis is `k`. -/
theorem lift_ix (h : S16x2048x2048.Reduces [2] S16x2048) (b : Fin 16) (r : Fin 2048)
    (k : Fin (S16x2048x2048.size 2)) : h.lift (ix2 b r) k = ix3 b r (⟨k.val, k.isLt⟩ : Fin 2048) := by
  funext c; apply Fin.ext
  fin_cases c <;> rfl

/-- The maximum over the last axis, started from `⊥`, of an array whose row `(b, r)` is real, is real at `(b, r)`. -/
theorem rowMax_real (X : FVec Ideal S16x2048x2048 .f32) (init : FVec Ideal S_ .f32)
    (hinit : init (Shape.Idx.first h_S_) = ⊥) (b : Fin 16) (r : Fin 2048)
    (hX : ∀ j : Fin 2048, ∃ x : ℝ, X (ix3 b r j) = (x : EReal)) :
    ∃ M : ℝ, Host.reduce FloatOps.maximumf X init reducesTo_S16x2048x2048_S16x2048_d2 h_S_ (ix2 b r) = (M : EReal) := by
  have hred : S16x2048x2048.Reduces [2] S16x2048 := by decide
  rw [Host.reduce_eq_fold_single FloatOps.maximumf X init reducesTo_S16x2048x2048_S16x2048_d2 hred h_S_, hinit]
  refine fold_max_real _ ⟨⟨0, by decide⟩, Finset.mem_univ _⟩ _ fun k => ?_
  obtain ⟨x, hx⟩ := hX ⟨k.val, k.isLt⟩
  exact ⟨x, (congrArg X (lift_ix hred b r k)).trans hx⟩

/-- With real arguments the shift the reference subtracts at row `(b, r)` — the maximum of `-∞` and of the row's
    logits — is a real number. -/
theorem max_real (Q S : Arg) (q s : SArg.Idx → ℝ) (hQ : ∀ i, Q i = ((q i : ℝ) : EReal))
    (hS : ∀ i, S i = ((s i : ℝ) : EReal)) (b : Fin 16) (r : Fin 2048) :
    ∃ M : ℝ, val_main_v3 (F := Ideal) Q S (ix2 b r) = (M : EReal) := by
  have hL := logit_apply Q S q s hQ hS b r
  rw [val_main_v3_apply, val_main_v2_apply, val_main_cst_0_apply]
  unfold val_main_v1
  generalize val_main_v0 (F := Ideal) Q S = X at hL ⊢
  have hbot : FloatOps.ofBits (F := Ideal) .f32 0xFF800000#32 = (⊥ : EReal) := Cert.LibPlain.ofBits_neg_inf_f32
  obtain ⟨M, hM⟩ := rowMax_real X (val_main_cst (F := Ideal)) hbot b r (fun j => ⟨_, hL j⟩)
  refine ⟨M, (congrArg (FloatOps.maximumf (F := Ideal) (φ := .f32) _) hM).trans ?_⟩
  rw [hbot]
  exact max_eq_right bot_le

/-! ### The exponentials, their sum, and the weights -/

/-- With real arguments and a real shift `M` the reference's exponential at `(b, r, j)` is the real `exp (ℓ j - M)`. -/
theorem exp_apply (Q S : Arg) (q s : SArg.Idx → ℝ) (hQ : ∀ i, Q i = ((q i : ℝ) : EReal))
    (hS : ∀ i, S i = ((s i : ℝ) : EReal)) (b : Fin 16) (r : Fin 2048) (M : ℝ)
    (hM : val_main_v3 (F := Ideal) Q S (ix2 b r) = (M : EReal)) (j : Fin 2048) :
    val_main_v7 (F := Ideal) Q S (ix3 b r j)
      = ((Real.exp (logit (qRow q b r) (sRows s b) j - M) : ℝ) : EReal) := by
  have ei : idx_main_v4 (idx_main_v5 (ix3 b r j)) = ix2 b r := funext fun a => Fin.ext (by
    match a with
    | ⟨0, _⟩ => rfl
    | ⟨1, _⟩ => rfl)
  rw [val_main_v7_apply, val_main_v6_apply, val_main_v5_apply, val_main_v4_apply, ei, hM,
    logit_apply Q S q s hQ hS b r j, Ideal.subf_def, ← EReal.coe_sub, Ideal.hostUnary_exp_def, Ideal.exp_coe]

/-- The softmax denominator at row `(b, r)`: the real sum of the row's exponentials. -/
theorem denom_apply (Q S : Arg) (q s : SArg.Idx → ℝ) (hQ : ∀ i, Q i = ((q i : ℝ) : EReal))
    (hS : ∀ i, S i = ((s i : ℝ) : EReal)) (b : Fin 16) (r : Fin 2048) (M : ℝ)
    (hM : val_main_v3 (F := Ideal) Q S (ix2 b r) = (M : EReal)) :
    val_main_v8 (F := Ideal) Q S (ix2 b r)
      = ((∑ j : Fin 2048, Real.exp (logit (qRow q b r) (sRows s b) j - M) : ℝ) : EReal) := by
  rw [val_main_v8_apply, val_main_cst_1_apply, Ideal.ofBits_def, Ideal.ofBits_zero_f32, zero_add,
    Cert.LibERealSum.coe_sum]
  refine Finset.sum_congr rfl fun k _ => ?_
  have ei : idx_main_v8 (ix2 b r) k = ix3 b r k := funext fun a => Fin.ext (by
    match a with
    | ⟨0, _⟩ => rfl
    | ⟨1, _⟩ => rfl
    | ⟨2, _⟩ => rfl)
  rw [ei, exp_apply Q S q s hQ hS b r M hM k]

/-- The softmax weight at `(b, r, j)`: the real `exp (ℓ j - M) * (1 / ∑ j', exp (ℓ j' - M))`; the denominator is a
    nonempty sum of positive reals, so the quotient is a quotient of reals by a nonzero real. -/
theorem weight_apply (Q S : Arg) (q s : SArg.Idx → ℝ) (hQ : ∀ i, Q i = ((q i : ℝ) : EReal))
    (hS : ∀ i, S i = ((s i : ℝ) : EReal)) (b : Fin 16) (r : Fin 2048) (M : ℝ)
    (hM : val_main_v3 (F := Ideal) Q S (ix2 b r) = (M : EReal)) (j : Fin 2048) :
    val_main_v11 (F := Ideal) Q S (ix3 b r j)
      = ((Real.exp (logit (qRow q b r) (sRows s b) j - M)
          * (1 / ∑ j' : Fin 2048, Real.exp (logit (qRow q b r) (sRows s b) j' - M)) : ℝ) : EReal) := by
  have ei : idx_main_v9 (idx_main_v10 (ix3 b r j)) = ix2 b r := funext fun a => Fin.ext (by
    match a with
    | ⟨0, _⟩ => rfl
    | ⟨1, _⟩ => rfl)
  have hpos : (0 : ℝ) < ∑ j' : Fin 2048, Real.exp (logit (qRow q b r) (sRows s b) j' - M) :=
    Finset.sum_pos (fun _ _ => Real.exp_pos _) ⟨⟨0, by decide⟩, Finset.mem_univ _⟩
  rw [val_main_v11_apply, val_main_v10_apply, val_main_v9_apply, ei, denom_apply Q S q s hQ hS b r M hM,
    exp_apply Q S q s hQ hS b r M hM j, Ideal.hostDivf_def, Ideal.div_coe (ne_of_gt hpos), ← EReal.coe_mul]

/-! ### The attended vector and the score -/

/-- Coordinate `d` of the attended vector of row `(b, r)`: the real weighted sum of the support rows there. -/
theorem attend_apply (Q S : Arg) (q s : SArg.Idx → ℝ) (hQ : ∀ i, Q i = ((q i : ℝ) : EReal))
    (hS : ∀ i, S i = ((s i : ℝ) : EReal)) (b : Fin 16) (r : Fin 2048) (M : ℝ)
    (hM : val_main_v3 (F := Ideal) Q S (ix2 b r) = (M : EReal)) (d : Fin 512) :
    val_main_v12 (F := Ideal) Q S (ix3 b r d)
      = ((∑ j : Fin 2048, (Real.exp (logit (qRow q b r) (sRows s b) j - M)
          * (1 / ∑ j' : Fin 2048, Real.exp (logit (qRow q b r) (sRows s b) j' - M))) * s (ix3 b j d) : ℝ) : EReal) := by
  rw [val_main_v12_apply, Cert.LibERealSum.coe_sum]
  refine Finset.sum_congr rfl fun k _ => ?_
  have el : lidx_main_v12 (ix3 b r d) k = ix3 b r k := funext fun a => Fin.ext (by
    match a with
    | ⟨0, _⟩ => rfl
    | ⟨1, _⟩ => rfl
    | ⟨2, _⟩ => rfl)
  have er : ridx_main_v12 (ix3 b r d) k = ix3 b k d := funext fun a => Fin.ext (by
    match a with
    | ⟨0, _⟩ => rfl
    | ⟨1, _⟩ => rfl
    | ⟨2, _⟩ => rfl)
  rw [el, er, weight_apply Q S q s hQ hS b r M hM k, hS, ← EReal.coe_mul]

/-- The reference's result at `(b, r)`, for real arguments and the real shift `M` it subtracts there: the real row
    score taken with shift `M`. -/
theorem row_apply (Q S : Arg) (q s : SArg.Idx → ℝ) (hQ : ∀ i, Q i = ((q i : ℝ) : EReal))
    (hS : ∀ i, S i = ((s i : ℝ) : EReal)) (b : Fin 16) (r : Fin 2048) (M : ℝ)
    (hM : val_main_v3 (F := Ideal) Q S (ix2 b r) = (M : EReal)) :
    val_main_v14 (F := Ideal) Q S (ix2 b r) = ((refRow (qRow q b r) (sRows s b) M : ℝ) : EReal) := by
  rw [val_main_v14_apply, val_main_cst_2_apply, Ideal.ofBits_def, Ideal.ofBits_zero_f32, zero_add]
  unfold refRow
  rw [Cert.LibERealSum.coe_sum]
  refine Finset.sum_congr rfl fun k _ => ?_
  have ei : idx_main_v14 (ix2 b r) k = ix3 b r k := funext fun a => Fin.ext (by
    match a with
    | ⟨0, _⟩ => rfl
    | ⟨1, _⟩ => rfl
    | ⟨2, _⟩ => rfl)
  rw [ei, val_main_v13_apply, attend_apply Q S q s hQ hS b r M hM k, hQ, Ideal.mulf_def, ← EReal.coe_mul]

/-- The reference's result at entry `(b, r)`, for argument arrays of real numbers: for some real shift `M` (the row's
    maximal logit) it is the real row score of query row `(b, r)` against batch `b` of the support, taken with shift `M`. -/
theorem ref_row (q s : Cert.Spec.SArg.Idx → ℝ) (b : Fin 16) (r : Fin 2048) :
    ∃ M : ℝ, Cert.ReferenceIdeal.Read.val_main_v14 (F := Ideal) (fun i => ((q i : ℝ) : EReal)) (fun i => ((s i : ℝ) : EReal)) (ix2 b r)
      = ((Cert.Spec.refRow (fun d => q (ix3 b r d)) (fun j d => s (ix3 b j d)) M : ℝ) : EReal) := by
  obtain ⟨M, hM⟩ := max_real (fun i => ((q i : ℝ) : EReal)) (fun i => ((s i : ℝ) : EReal)) q s (fun _ => rfl) (fun _ => rfl) b r
  exact ⟨M, row_apply _ _ q s (fun _ => rfl) (fun _ => rfl) b r M hM⟩

end Cert.RefRow

end
-- ==== Proof.Bridge.lean ====
/-
  The reference's row score as the chunked softmax statistics.

  The row score is the inner product of the query row with the softmax-weighted sum of the support rows, the weights
  taken with some shift `Mr`.  Exchanging the two sums, it is the softmax-weighted mean of the logits; that mean does
  not depend on the shift and equals `M + N / Z` at any shift `M`, with `Z = ∑ j, exp (ℓ j - M)` and
  `N = ∑ j, exp (ℓ j - M) * (ℓ j - M)` over all 2048 positions; and a sum over the 2048 positions is the sum, over the
  four chunks of 512, of the chunk sums.
-/
import proofs.«168202_j14027363189464_2_alg».proof.Proof.Spec
import proofs.«168202_j14027363189464_2_alg».proof.Proof.SoftmaxReal

noncomputable section

namespace Cert.Bridge

open Cert.Spec Cert.Softmax

/-- The logits cut into chunks are the logits at the chunks' positions. -/
theorem chunkLogits_apply (q : Fin 512 → ℝ) (s : Fin 2048 → Fin 512 → ℝ) (c : Fin 4) (j : Fin 512) :
    chunkLogits q s c j = logit q s (chunkIdx c j) := rfl

/-- `Z` over the four chunks is the sum of the exponentials over all 2048 positions. -/
theorem ZA_all (q : Fin 512 → ℝ) (s : Fin 2048 → Fin 512 → ℝ) (M : ℝ) :
    ZA (chunkLogits q s) A4 M = ∑ j : Fin 2048, Real.exp (logit q s j - M) := by
  unfold ZA Zc
  rw [A4_eq_univ, sum_chunks (fun p : Fin 2048 => Real.exp (logit q s p - M))]
  exact Finset.sum_congr rfl fun c _ => Finset.sum_congr rfl fun j _ => by rw [chunkLogits_apply]

/-- `N` over the four chunks is the sum of `exp (ℓ j - M) * (ℓ j - M)` over all 2048 positions. -/
theorem NA_all (q : Fin 512 → ℝ) (s : Fin 2048 → Fin 512 → ℝ) (M : ℝ) :
    NA (chunkLogits q s) A4 M = ∑ j : Fin 2048, Real.exp (logit q s j - M) * (logit q s j - M) := by
  unfold NA Nc
  rw [A4_eq_univ, sum_chunks (fun p : Fin 2048 => Real.exp (logit q s p - M) * (logit q s p - M))]
  exact Finset.sum_congr rfl fun c _ => Finset.sum_congr rfl fun j _ => by rw [chunkLogits_apply]

/-- The row score is the softmax-weighted mean of the logits, the weights taken with the same shift. -/
theorem refRow_eq_mean (q : Fin 512 → ℝ) (s : Fin 2048 → Fin 512 → ℝ) (Mr : ℝ) :
    refRow q s Mr
      = ∑ j : Fin 2048, (Real.exp (logit q s j - Mr) * (1 / ∑ j' : Fin 2048, Real.exp (logit q s j' - Mr))) * logit q s j := by
  unfold refRow
  exact attended_eq q s (fun j => Real.exp (logit q s j - Mr) * (1 / ∑ j' : Fin 2048, Real.exp (logit q s j' - Mr)))

/-- The row score, its softmax taken with any shift `Mr`, is `M + N / Z` of the chunked statistics at any shift `M`. -/
theorem score_eq (q : Fin 512 → ℝ) (s : Fin 2048 → Fin 512 → ℝ) (Mr M : ℝ) :
    Cert.Spec.refRow q s Mr
      = M + Cert.Softmax.NA (Cert.Softmax.chunkLogits q s) Cert.Softmax.A4 M * (1 / Cert.Softmax.ZA (Cert.Softmax.chunkLogits q s) Cert.Softmax.A4 M) := by
  rw [refRow_eq_mean, NA_all, ZA_all]
  exact mean_shift (logit q s) Mr M

end Cert.Bridge

end
-- ==== Proof.Equiv.lean ====
/-
  The kernel program's result and the reference's result are one array, when the argument arrays are real.

  Entry `(b, r)` of the kernel's result is the score the body writes for query row `r` of batch `b`: `M + N / Z` over
  the four chunks of the row's logits, for some real shift `M`.  The reference's entry is the inner product of the query
  row with the softmax-weighted sum of the support rows, its softmax taken with the row maximum as shift.  Both are the
  softmax-weighted mean of the logits, which does not depend on the shift.
-/
import proofs.«168202_j14027363189464_2_alg».proof.Proof.KernelValue
import proofs.«168202_j14027363189464_2_alg».proof.Proof.KernelRow
import proofs.«168202_j14027363189464_2_alg».proof.Proof.RefRow
import proofs.«168202_j14027363189464_2_alg».proof.Proof.Bridge

noncomputable section

namespace Cert.Equiv

open Idealize.ShloMosaic Idealize.ShloMosaic.ValueIdx

/-- For real argument arrays `q`, `s` the kernel's result array is the reference's. -/
theorem result_eq_ref (q s : Cert.Spec.SArg.Idx → ℝ) :
    Cert.KernelIdeal.KV.result (fun i => ((q i : ℝ) : EReal)) (fun i => ((s i : ℝ) : EReal))
      = Cert.ReferenceIdeal.Read.val_main_v14 (F := Ideal) (fun i => ((q i : ℝ) : EReal)) (fun i => ((s i : ℝ) : EReal)) := by
  funext i
  obtain ⟨b, r, rfl⟩ : ∃ (b : Fin 16) (r : Fin 2048), i = ix2 b r := ⟨i 0, i 1, eq_ix2 i⟩
  obtain ⟨Mr, hr⟩ := Cert.RefRow.ref_row q s b r
  obtain ⟨M, hk⟩ := Cert.KernelIdeal.Row.out_row
    (Cert.Spec.blockOf (fun i => ((q i : ℝ) : EReal)) b) (Cert.Spec.blockOf (fun i => ((s i : ℝ) : EReal)) b)
    (fun r k => q (ix3 b r k)) (fun j k => s (ix3 b j k)) (fun _ _ => rfl) (fun _ _ => rfl) r
  rw [hr]
  refine Eq.trans ?_ (hk.trans ?_)
  · rfl
  · exact congrArg _ (Cert.Bridge.score_eq _ _ Mr M).symm

end Cert.Equiv

end
-- ==== Proof.lean ====
/-
  The kernel scores each query row against the support rows of its batch by a softmax taken chunk by chunk under a
  running maximum, and uses that the inner product of a query row with the softmax-weighted sum of the support rows is
  the softmax-weighted mean of the row's logits.  The reference forms the softmax, the weighted sum and the inner
  product one after the other.  Over the extended reals, for finite inputs, every intermediate value of both programs
  is a real number, and both results are that mean, which does not depend on the shift the softmax is taken with.

  The three frames are the generated frame runs; the idealization changed nothing, so `preserves` is trivial; the
  value claim puts the kernel's run with its result named (Proof/KernelValue.lean) beside the reference's run and closes
  with the equality of the two result arrays for real arguments (Proof/Equiv.lean), the arguments being real by the
  precondition (Proof/Finite.lean).
-/
import proofs.«168202_j14027363189464_2_alg».proof.Defs
import proofs.«168202_j14027363189464_2_alg».proof.Proof.Gen.Kernel
import proofs.«168202_j14027363189464_2_alg».proof.Proof.Gen.Kernel.Frame
import proofs.«168202_j14027363189464_2_alg».proof.Proof.Gen.KernelIdeal
import proofs.«168202_j14027363189464_2_alg».proof.Proof.Gen.KernelIdeal.Frame
import proofs.«168202_j14027363189464_2_alg».proof.Proof.Gen.ReferenceIdeal
import proofs.«168202_j14027363189464_2_alg».proof.Proof.Gen.ReferenceIdeal.Run
import proofs.«168202_j14027363189464_2_alg».proof.Proof.Gen.ReferenceIdeal.Read
import proofs.«168202_j14027363189464_2_alg».proof.Proof.Gen.Pre_finite_inputs
import proofs.«168202_j14027363189464_2_alg».proof.Proof.KernelValue
import proofs.«168202_j14027363189464_2_alg».proof.Proof.Finite
import proofs.«168202_j14027363189464_2_alg».proof.Proof.Equiv
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the same result array: the kernel's named
    result, which for the real arguments the precondition gives is the reference's. -/
theorem algebraic : Cert.algebraic_KernelIdeal_ReferenceIdeal := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨⟨q, hq⟩, ⟨s, hs⟩⟩ := Cert.Finite.real_args m hpre c
  rw [hq, hs]
  exact (Cert.ReferenceIdeal.Read.val_main_v14_eq _ _).trans (Cert.Equiv.result_eq_ref q s).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
